-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1536x512 : Shape := ⟨2, ![1536, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512 .f32) (main_arg5 : FVec F S512 .f32) (main_arg6 : FVec F S512 .f32) (main_arg7 : FVec F S512 .f32) (main_arg8 : FVec F S512 .f32) (main_arg9 : FVec F S512 .f32) (main_v13 : IVec S_ 1) (main_v16 : IVec S1536x512 1) : IVec S_ 1 :=
  let main_c_5 : IVec S_ 1 := constantI S_ 1 1#1
  let main_v17 : IVec S_ 1 := (fun x v => Host.reduce IntOp.andi x v reducesTo_S1536x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S16384x512 .f32) (main_arg1 : FVec F S16384x512 .f32) (main_arg2 : FVec F S1536x512 .f32) (main_arg3 : FVec F S1536x512 .f32) (main_arg4 : FVec F S512 .f32) (main_arg5 : FVec F S512 .f32) (main_arg6 : FVec F S512 .f32) (main_arg7 : FVec F S512 .f32) (main_arg8 : FVec F S512 .f32) (main_arg9 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1536x512 .f32 := Host.absf main_arg2
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S1536x512 .f32 := Host.absf main_arg3
  let main_cst_4 : FVec F S_ .f32 := constant S_ .f32 0x7F800000#32
  let main_v15 : FVec F S1536x512 .f32 := broadcastInDim S1536x512 ![] bcast_S_S1536x512 main_cst_4
  let main_v16 : IVec S1536x512 1 := cmpf .olt main_v14 main_v15
  fn_part1 (F := F) main_arg4 main_arg5 main_arg6 main_arg7 main_arg8 main_arg9 main_v13 main_v16
-- ==== Kernel.lean ====
abbrev S16384x512 : Shape := ⟨2, ![16384, 512]⟩
abbrev S1536x512 : Shape := ⟨2, ![1536, 512]⟩
abbrev S512 : Shape := ⟨1, ![512]⟩
abbrev S512x1536 : Shape := ⟨2, ![512, 1536]⟩
abbrev S1x512 : Shape := ⟨2, ![1, 512]⟩
abbrev S512x512 : Shape := ⟨2, ![512, 512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1536x512, .f32⟩
  | .hbm, ⟨3, _⟩ => ⟨S1536x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x1536, .f32⟩
  | .hbm, ⟨11, _⟩ => ⟨S512x1536, .bf16⟩
  | .hbm, ⟨12, _⟩ => ⟨S512x1536, .f32⟩
  | .hbm, ⟨13, _⟩ => ⟨S512x1536, .bf16⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1536, .bf16⟩
  | .local _ .vmem, ⟨5, _⟩ => ⟨S512x1536, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S1536x512_S512x1536_1_0 : S1536x512.Transposes [1, 0] S512x1536
  bitsLt_bf16_f32 : FTy.bits .bf16 < FTy.bits .f32
  shapeCasts_S512_S1x512 : S512.ShapeCasts S1x512
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  shapeCasts_S512_S512x1 : S512.ShapeCasts S512x1
  broadcasts_S512x1_S512x512 : S512x1.Broadcasts S512x512
  broadcasts_S1x512_S512x512 : S1x512.Broadcasts S512x512
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S16384x512.size a
  hwx0_10 : ∀ i : grid0.Coords, EltTy.bits .f32 = 32 ∨ (Rect.block (s := S16384x512) S512x512.size (cc0_transform_10 i) (hinb0_10 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S512x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x512 : Shape := ⟨2, ![16384, 512]⟩
abbrev S1536x512 : Shape := ⟨2, ![1536, 512]⟩
abbrev S512 : Shape := ⟨1, ![512]⟩
abbrev S512x1536 : Shape := ⟨2, ![512, 1536]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S1x512 : Shape := ⟨2, ![1, 512]⟩

abbrev nBuf : Space → Nat
  | .hbm => 179
  | .vmem => 0
  | .smem => 0
  | _ => 0

abbrev hbmTy0_0 (i : Nat) : BufTy := match i % 128 with
  | 0 => ⟨S16384x512, .f32⟩
  | 1 => ⟨S16384x512, .f32⟩
  | 2 => ⟨S1536x512, .f32⟩
  | 3 => ⟨S1536x512, .f32⟩
  | 4 => ⟨S512, .f32⟩
  | 5 => ⟨S512, .f32⟩
  | 6 => ⟨S512, .f32⟩
  | 7 => ⟨S512, .f32⟩
  | 8 => ⟨S512, .f32⟩
  | 9 => ⟨S512, .f32⟩
  | 10 => ⟨S512x1536, .f32⟩
  | 11 => ⟨S16384x1536, .f32⟩
  | 12 => ⟨S512x1536, .f32⟩
  | 13 => ⟨S16384x1536, .f32⟩
  | 14 => ⟨S16384x512, .f32⟩
  | 15 => ⟨S16384x512, .f32⟩
  | 16 => ⟨S16384x512, .f32⟩
  | 17 => ⟨S16384x512, .f32⟩
  | 18 => ⟨S16384x512, .f32⟩
  | 19 => ⟨S16384x512, .f32⟩
  | 20 => ⟨S16384x512, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S_, .i32⟩
  | 28 => ⟨S_, .f32⟩
  | 29 => ⟨S16384, .f32⟩
  | 30 => ⟨S16384x1, .f32⟩
  | 31 => ⟨S_, .f32⟩
  | 32 => ⟨S16384x1, .f32⟩
  | 33 => ⟨S16384x1, .f32⟩
  | 34 => ⟨S16384x512, .f32⟩
  | 35 => ⟨S16384x512, .f32⟩
  | 36 => ⟨S16384x512, .f32⟩
  | 37 => ⟨S_, .f32⟩
  | 38 => ⟨S_, .f32⟩
  | 39 => ⟨S_, .f32⟩
  | 40 => ⟨S_, .f32⟩
  | 41 => ⟨S16384, .f32⟩
  | 42 => ⟨S16384x1, .f32⟩
  | 43 => ⟨S16384x1, .f32⟩
  | 44 => ⟨S16384x1, .f32⟩
  | 45 => ⟨S_, .f32⟩
  | 46 => ⟨S_, .i1⟩
  | 47 => ⟨S_, .f32⟩
  | 48 => ⟨S_, .f32⟩
  | 49 => ⟨S16384x1, .f32⟩
  | 50 => ⟨S16384x1, .f32⟩
  | 51 => ⟨S16384x512, .f32⟩
  | 52 => ⟨S16384x512, .f32⟩
  | 53 => ⟨S_, .f32⟩
  | 54 => ⟨S16384x1, .f32⟩
  | 55 => ⟨S16384x1, .f32⟩
  | 56 => ⟨S16384x1, .f32⟩
  | 57 => ⟨S16384x512, .f32⟩
  | 58 => ⟨S16384x512, .f32⟩
  | 59 => ⟨S1x512, .f32⟩
  | 60 => ⟨S16384x512, .f32⟩
  | 61 => ⟨S16384x512, .f32⟩
  | 62 => ⟨S1x512, .f32⟩
  | 63 => ⟨S16384x512, .f32⟩
  | 64 => ⟨S16384x512, .f32⟩
  | 65 => ⟨S16384x512, .f32⟩
  | 66 => ⟨S16384x512, .f32⟩
  | 67 => ⟨S_, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S16384x512, .f32⟩
  | 74 => ⟨S_, .f32⟩
  | 75 => ⟨S16384, .f32⟩
  | 76 => ⟨S16384x1, .f32⟩
  | 77 => ⟨S_, .f32⟩
  | 78 => ⟨S16384x1, .f32⟩
  | 79 => ⟨S16384x1, .f32⟩
  | 80 => ⟨S_, .i32⟩
  | 81 => ⟨S_, .f32⟩
  | 82 => ⟨S16384, .f32⟩
  | 83 => ⟨S16384x1, .f32⟩
  | 84 => ⟨S_, .f32⟩
  | 85 => ⟨S16384x1, .f32⟩
  | 86 => ⟨S16384x1, .f32⟩
  | 87 => ⟨S16384x512, .f32⟩
  | 88 => ⟨S16384x512, .f32⟩
  | 89 => ⟨S16384x512, .f32⟩
  | 90 => ⟨S_, .f32⟩
  | 91 => ⟨S_, .f32⟩
  | 92 => ⟨S_, .f32⟩
  | 93 => ⟨S_, .f32⟩
  | 94 => ⟨S16384, .f32⟩
  | 95 => ⟨S16384x1, .f32⟩
  | 96 => ⟨S16384x1, .f32⟩
  | 97 => ⟨S16384x1, .f32⟩
  | 98 => ⟨S_, .f32⟩
  | 99 => ⟨S_, .i1⟩
  | 100 => ⟨S_, .f32⟩
  | 101 => ⟨S_, .f32⟩
  | 102 => ⟨S16384x1, .f32⟩
  | 103 => ⟨S16384x1, .f32⟩
  | 104 => ⟨S16384x512, .f32⟩
  | 105 => ⟨S16384x512, .f32⟩
  | 106 => ⟨S_, .f32⟩
  | 107 => ⟨S16384x1, .f32⟩
  | 108 => ⟨S16384x1, .f32⟩
  | 109 => ⟨S16384x1, .f32⟩
  | 110 => ⟨S16384x512, .f32⟩
  | 111 => ⟨S16384x512, .f32⟩
  | 112 => ⟨S1x512, .f32⟩
  | 113 => ⟨S16384x512, .f32⟩
  | 114 => ⟨S16384x512, .f32⟩
  | 115 => ⟨S1x512, .f32⟩
  | 116 => ⟨S16384x512, .f32⟩
  | 117 => ⟨S16384x512, .f32⟩
  | 118 => ⟨S16384x512, .f32⟩
  | 119 => ⟨S16384x512, .f32⟩
  | 120 => ⟨S_, .f32⟩
  | 121 => ⟨S16384x512, .f32⟩
  | 122 => ⟨S16384x512, .f32⟩
  | 123 => ⟨S_, .f32⟩
  | 124 => ⟨S16384x512, .f32⟩
  | 125 => ⟨S16384x512, .f32⟩
  | 126 => ⟨S16384x512, .f32⟩
  | 127 => ⟨S16384x512, .f32⟩
  | _ => ⟨S16384x512, .f32⟩

abbrev hbmTy0_1 (i : Nat) : BufTy := match i % 128 with
  | 0 => ⟨S_, .f32⟩
  | 1 => ⟨S16384, .f32⟩
  | 2 => ⟨S16384x1, .f32⟩
  | 3 => ⟨S_, .f32⟩
  | 4 => ⟨S16384x1, .f32⟩
  | 5 => ⟨S16384x1, .f32⟩
  | 6 => ⟨S_, .i32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S16384x512, .f32⟩
  | 14 => ⟨S16384x512, .f32⟩
  | 15 => ⟨S16384x512, .f32⟩
  | 16 => ⟨S_, .f32⟩
  | 17 => ⟨S_, .f32⟩
  | 18 => ⟨S_, .f32⟩
  | 19 => ⟨S_, .f32⟩
  | 20 => ⟨S16384, .f32⟩
  | 21 => ⟨S16384x1, .f32⟩
  | 22 => ⟨S16384x1, .f32⟩
  | 23 => ⟨S16384x1, .f32⟩
  | 24 => ⟨S_, .f32⟩
  | 25 => ⟨S_, .i1⟩
  | 26 => ⟨S_, .f32⟩
  | 27 => ⟨S_, .f32⟩
  | 28 => ⟨S16384x1, .f32⟩
  | 29 => ⟨S16384x1, .f32⟩
  | 30 => ⟨S16384x512, .f32⟩
  | 31 => ⟨S16384x512, .f32⟩
  | 32 => ⟨S_, .f32⟩
  | 33 => ⟨S16384x1, .f32⟩
  | 34 => ⟨S16384x1, .f32⟩
  | 35 => ⟨S16384x1, .f32⟩
  | 36 => ⟨S16384x512, .f32⟩
  | 37 => ⟨S16384x512, .f32⟩
  | 38 => ⟨S1x512, .f32⟩
  | 39 => ⟨S16384x512, .f32⟩
  | 40 => ⟨S16384x512, .f32⟩
  | 41 => ⟨S1x512, .f32⟩
  | 42 => ⟨S16384x512, .f32⟩
  | 43 => ⟨S16384x512, .f32⟩
  | 44 => ⟨S16384x512, .f32⟩
  | 45 => ⟨S_, .f32⟩
  | 46 => ⟨S16384x512, .f32⟩
  | 47 => ⟨S16384x512, .f32⟩
  | 48 => ⟨S16384x512, .f32⟩
  | 49 => ⟨S16384x512, .f32⟩
  | 50 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_cst_3 : Ref sig .tc := ⟨.hbm, 45, rfl⟩
abbrev main_call0_v13 : Ref sig .tc := ⟨.hbm, 46, rfl⟩
abbrev main_call0_cst_4 : Ref sig .tc := ⟨.hbm, 47, rfl⟩
abbrev main_call0_call0_v0 : Ref sig .tc := ⟨.hbm, 48, rfl⟩
abbrev main_call0_call0_v1 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_1 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_2 : Ref sig .tc := ⟨.hbm, 67, rfl⟩
abbrev main_v31 : Ref sig .tc := ⟨.hbm, 68, rfl⟩
abbrev main_v32 : Ref sig .tc := ⟨.hbm, 69, rfl⟩
abbrev main_cst_3 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_4 : Ref sig .tc := ⟨.hbm, 74, rfl⟩
abbrev main_v36 : Ref sig .tc := ⟨.hbm, 75, rfl⟩
abbrev main_v37 : Ref sig .tc := ⟨.hbm, 76, rfl⟩
abbrev main_cst_5 : Ref sig .tc := ⟨.hbm, 77, rfl⟩
abbrev main_v38 : Ref sig .tc := ⟨.hbm, 78, rfl⟩
abbrev main_v39 : Ref sig .tc := ⟨.hbm, 79, rfl⟩
abbrev main_c_6 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_v12 : Ref sig .tc := ⟨.hbm, 97, rfl⟩
abbrev main_call1_cst_3 : Ref sig .tc := ⟨.hbm, 98, rfl⟩
abbrev main_call1_v13 : Ref sig .tc := ⟨.hbm, 99, rfl⟩
abbrev main_call1_cst_4 : Ref sig .tc := ⟨.hbm, 100, rfl⟩
abbrev main_call1_call0_v0 : Ref sig .tc := ⟨.hbm, 101, rfl⟩
abbrev main_call1_call0_v1 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_cst_7 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_cst_8 : Ref sig .tc := ⟨.hbm, 120, rfl⟩
abbrev main_v56 : Ref sig .tc := ⟨.hbm, 121, rfl⟩
abbrev main_v57 : Ref sig .tc := ⟨.hbm, 122, rfl⟩
abbrev main_cst_9 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_cst_10 : Ref sig .tc := ⟨.hbm, 128, rfl⟩
abbrev main_v62 : Ref sig .tc := ⟨.hbm, 129, rfl⟩
abbrev main_v63 : Ref sig .tc := ⟨.hbm, 130, rfl⟩
abbrev main_cst_11 : Ref sig .tc := ⟨.hbm, 131, rfl⟩
abbrev main_v64 : Ref sig .tc := ⟨.hbm, 132, rfl⟩
abbrev main_v65 : Ref sig .tc := ⟨.hbm, 133, rfl⟩
abbrev main_c_12 : Ref sig .tc := ⟨.hbm, 134, rfl⟩
abbrev main_call2_cst : Ref sig .tc := ⟨.hbm, 135, rfl⟩
abbrev main_call2_v0 : Ref sig .tc := ⟨.hbm, 136, rfl⟩
abbrev main_call2_v1 : Ref sig .tc := ⟨.hbm, 137, rfl⟩
abbrev main_call2_cst_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_v6 : Ref sig .tc := ⟨.hbm, 143, rfl⟩
abbrev main_call2_v7 : Ref sig .tc := ⟨.hbm, 144, rfl⟩
abbrev main_call2_cst_1 : Ref sig .tc := ⟨.hbm, 145, rfl⟩
abbrev main_call2_v8 : Ref sig .tc := ⟨.hbm, 146, rfl⟩
abbrev main_call2_cst_2 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_v12 : Ref sig .tc := ⟨.hbm, 151, rfl⟩
abbrev main_call2_cst_3 : Ref sig .tc := ⟨.hbm, 152, rfl⟩
abbrev main_call2_v13 : Ref sig .tc := ⟨.hbm, 153, rfl⟩
abbrev main_call2_cst_4 : Ref sig .tc := ⟨.hbm, 154, rfl⟩
abbrev main_call2_call0_v0 : Ref sig .tc := ⟨.hbm, 155, rfl⟩
abbrev main_call2_call0_v1 : Ref sig .tc := ⟨.hbm, 156, rfl⟩
abbrev main_v66 : Ref sig .tc := ⟨.hbm, 157, rfl⟩
abbrev main_v67 : Ref sig .tc := ⟨.hbm, 158, rfl⟩
abbrev main_v68 : Ref sig .tc := ⟨.hbm, 159, rfl⟩
abbrev main_cst_13 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_cst_14 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩

abbrev nD : Nat := 1
abbrev τ : Topo := Topo.v7x

variable {F : FTy → Type} [FloatOps F]

class Facts₀ : Prop where
  transposes_S1536x512_S512x1536_1_0 : S1536x512.Transposes [1, 0] S512x1536
  slices_S16384x1536_S16384x512_0_0 : S16384x1536.Slices ![0, 0] S16384x512
  slices_S16384x1536_S16384x512_0_512 : S16384x1536.Slices ![0, 512] S16384x512
  slices_S16384x1536_S16384x512_0_1024 : S16384x1536.Slices ![0, 1024] S16384x512
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  dot_S16384x512_S512x1536_S16384x1536_1_0_0_1_n_n_wf : DotDims.WF S16384x512 S512x1536 S16384x1536 [1] [0] [0] [1] [] []

variable [Facts₀]

def dot_S16384x512_S512x1536_S16384x1536_1_0_0_1_n_n : DotDims S16384x512 S512x1536 S16384x1536 where
  lhsContracting := [1]
  rhsContracting := [0]
  lhsNonContracting := [0]
  rhsNonContracting := [1]
  lhsBatch := []
  rhsBatch := []
  wf := dot_S16384x512_S512x1536_S16384x1536_1_0_0_1_n_n_wf

class Facts : Prop extends Facts₀ where

variable [Facts]
-- ==== Proof.Spec.lean ====
/-
  The layer-normalised GRU cell, one batch row at a time, on the extended reals.

  A batch row of the result depends on that row of `x` and of `h` only. With the row's two projections
  `px c = ∑ k, x k · W_i2h c k` and `ph c = ∑ k, h k · W_h2h c k` over the 1536 gate columns (three blocks of 512:
  reset, update, candidate), the cell is

    r = logistic (LN (px₀ + ph₀)),   z = logistic (LN (px₁ + ph₁)),   n = tanh (LN (px₂ + r · ph₂)),
    out = (1 − z) · n + z · h,

  where `LN v = (v − mean v) · rsqrt (var v + ε) · γ + β` over the 512 entries of a row. The one thing in which the
  two programs differ is the VARIANCE: the mean of the squares minus the square of the mean (`var1`), or the mean
  of the squared deviations (`var2`). The cell is therefore stated with the variance as a parameter `σ`.
  The float constants (512, ε, 1) stay the binary words both programs spell.
-/
import Idealize.ShloMosaic.PureOps.Ideal
import Idealize.ShloMosaic.Lib.ValueIdx

noncomputable section

open scoped BigOperators

namespace Cert.Gru

open Idealize.ShloMosaic Idealize.ShloMosaic.ValueIdx

/-- The row length 512 as both programs spell it. -/
abbrev c512 : EReal := Ideal.ofBits .f32 0x44000000#32
/-- The layer norm's ε (the float nearest 1e-5). -/
abbrev eps : EReal := Ideal.ofBits .f32 0x3727C5AC#32
/-- The float 1. -/
abbrev one : EReal := Ideal.ofBits .f32 0x3F800000#32

/-- One row of 512 entries. -/
abbrev Row := Fin 512 → EReal

/-- The mean of a row: its sum divided by 512. -/
def mean (v : Row) : EReal := Ideal.div (∑ k, v k) c512

/-- The variance in ONE pass: the mean of the squares minus the square of the mean. -/
def var1 (v : Row) : EReal := Ideal.div (∑ k, v k * v k) c512 - mean v * mean v

/-- The variance in TWO passes: the mean of the squared deviations from the mean. -/
def var2 (v : Row) : EReal := Ideal.div (∑ k, (v k - mean v) * (v k - mean v)) c512

/-- Layer normalisation of a row at entry `j`, the variance `s` given: `(v j − mean v) · rsqrt (s + ε) · γ j + β j`. -/
def ln (s : EReal) (v g b : Row) (j : Fin 512) : EReal :=
  (v j - mean v) * Ideal.rsqrt (s + eps) * g j + b j

/-- Column `j` of the reset block among the 1536 projected columns. -/
abbrev col0 (j : Fin 512) : Fin 1536 := ⟨j.val, by have := j.isLt; omega⟩
/-- Column `j` of the update block. -/
abbrev col1 (j : Fin 512) : Fin 1536 := ⟨j.val + 512, by have := j.isLt; omega⟩
/-- Column `j` of the candidate block. -/
abbrev col2 (j : Fin 512) : Fin 1536 := ⟨j.val + 1024, by have := j.isLt; omega⟩

/-- A row projected onto the 1536 gate columns by a weight matrix stored [column, input]. -/
def proj (xrow : Row) (W : Fin 1536 → Fin 512 → EReal) (c : Fin 1536) : EReal := ∑ k, xrow k * W c k

/-- The reset gate's input: the two projections' reset blocks added. -/
def preR (px ph : Fin 1536 → EReal) : Row := fun i => px (col0 i) + ph (col0 i)
/-- The update gate's input. -/
def preZ (px ph : Fin 1536 → EReal) : Row := fun i => px (col1 i) + ph (col1 i)
/-- The reset gate. -/
def gateR (σ : Row → EReal) (px ph : Fin 1536 → EReal) (gr br : Row) : Row :=
  fun i => Ideal.logistic (ln (σ (preR px ph)) (preR px ph) gr br i)
/-- The update gate. -/
def gateZ (σ : Row → EReal) (px ph : Fin 1536 → EReal) (gz bz : Row) : Row :=
  fun i => Ideal.logistic (ln (σ (preZ px ph)) (preZ px ph) gz bz i)
/-- The candidate's input: the input projection plus the reset gate times the hidden projection. -/
def preN (px ph : Fin 1536 → EReal) (r : Row) : Row := fun i => px (col2 i) + r i * ph (col2 i)
/-- The candidate state. -/
def cand (σ : Row → EReal) (px ph : Fin 1536 → EReal) (r gn bn : Row) : Row :=
  fun i => Ideal.tanh (ln (σ (preN px ph r)) (preN px ph r) gn bn i)

/-- The new hidden state of one row at entry `j`: `(1 − z) · n + z · h`. -/
def cell (σ : Row → EReal) (px ph : Fin 1536 → EReal) (hrow gr br gz bz gn bn : Row) (j : Fin 512) : EReal :=
  (one - gateZ σ px ph gz bz j) * cand σ px ph (gateR σ px ph gr br) gn bn j + gateZ σ px ph gz bz j * hrow j

/-- The result at batch row `b`, entry `j`, as a function of the ten argument arrays. -/
def Gat (σ : Row → EReal) (x h : (⟨2, ![16384, 512]⟩ : Shape).Idx → EReal) (wi wh : (⟨2, ![1536, 512]⟩ : Shape).Idx → EReal)
    (gr br gz bz gn bn : (⟨1, ![512]⟩ : Shape).Idx → EReal) (b : Fin 16384) (j : Fin 512) : EReal :=
  cell σ (proj (fun k => x (ix2 b k)) (fun c k => wi (ix2 c k))) (proj (fun k => h (ix2 b k)) (fun c k => wh (ix2 c k)))
    (fun k => h (ix2 b k)) (fun k => gr (ix1 k)) (fun k => br (ix1 k)) (fun k => gz (ix1 k)) (fun k => bz (ix1 k))
    (fun k => gn (ix1 k)) (fun k => bn (ix1 k)) j

/-- The whole result array. -/
def G (σ : Row → EReal) (x h : (⟨2, ![16384, 512]⟩ : Shape).Idx → EReal) (wi wh : (⟨2, ![1536, 512]⟩ : Shape).Idx → EReal)
    (gr br gz bz gn bn : (⟨1, ![512]⟩ : Shape).Idx → EReal) : (⟨2, ![16384, 512]⟩ : Shape).Idx → EReal :=
  fun i => Gat σ x h wi wh gr br gz bz gn bn (i 0) (i 1)

theorem G_ix2 (σ : Row → EReal) (x h : (⟨2, ![16384, 512]⟩ : Shape).Idx → EReal) (wi wh : (⟨2, ![1536, 512]⟩ : Shape).Idx → EReal)
    (gr br gz bz gn bn : (⟨1, ![512]⟩ : Shape).Idx → EReal) (b : Fin 16384) (j : Fin 512) :
    G σ x h wi wh gr br gz bz gn bn (ix2 b j) = Gat σ x h wi wh gr br gz bz gn bn b j := rfl

end Cert.Gru

end
-- ==== Proof.RefTerm.lean ====
/-
  What the reference computes, as ONE term of its ten argument arrays, built from the vector operations its
  program applies, in the program's own order and association:

    projections  X = x · W_i2hᵀ,  H = h · W_h2hᵀ   (16384 × 1536 each), cut into three column blocks of 512;
    LN v γ β     = (v − mean v) · rsqrt (var v + ε) · γ + β   row by row, the mean a row sum over 512 and the variance
                   the library routine's: the row sum of the squared deviations over (512 − ddof), selected when
                   that divisor is positive;
    sigmoid u    = 1 / (1 + exp (−u));
    r = sigmoid (LN (X₀ + H₀)),  z = sigmoid (LN (X₁ + H₁)),  n = tanh (LN (X₂ + r · H₂)),
    result       = (1 − z) · n + z · h.
-/
import proofs.«115454_j39745627357260_2_alg».proof.Proof.Gen.ReferenceIdeal

noncomputable section

namespace Cert.ReferenceIdeal.RefTerm

open Cert.ReferenceIdeal Cert.ReferenceIdeal.Gen Idealize.ShloMosaic Idealize.ShloMosaic.TcCoe

variable {F : FTy → Type} [FloatOps F]

/-- A scalar constant spread over a column of 16384 rows. -/
def colConst (b : BitVec 32) : FVec F S16384x1 .f32 :=
  broadcastInDim S16384x1 ![] bcast_S_S16384x1 (constant (F := F) S_ .f32 b)

/-- A column spread over the 512 entries of each row. -/
def spread (w : FVec F S16384x1 .f32) : FVec F S16384x512 .f32 :=
  broadcastInDim S16384x512 ![0, 1] bcast_S16384x1_S16384x512_0_1 w

/-- A vector of 512 entries repeated on every row. -/
def rows (g : FVec F S512 .f32) : FVec F S16384x512 .f32 :=
  broadcastInDim S16384x512 ![0, 1] bcast_S1x512_S16384x512_0_1 (broadcastInDim S1x512 ![1] bcast_S512_S1x512_1 g)

/-- The row sums of an array, as a column. -/
def rowSum (v : FVec F S16384x512 .f32) : FVec F S16384x1 .f32 :=
  broadcastInDim S16384x1 ![0] bcast_S16384_S16384x1_0
    (Host.reduceAdd v (constant (F := F) S_ .f32 0x00000000#32) reducesTo_S16384x512_S16384_d1 h_S_)

/-- The row means: the row sums divided by 512. -/
def meanV (v : FVec F S16384x512 .f32) : FVec F S16384x1 .f32 :=
  Host.divf (rowSum v) (colConst 0x44000000#32)

/-- The row variances as the library routine computes them, `c` its degrees-of-freedom correction. -/
def varV (v : FVec F S16384x512 .f32) (c : IVec S_ 32) : FVec F S16384x1 .f32 :=
  select
    (broadcastInDim S16384x1 ![] bcast_S_S16384x1
      (cmpf .ogt (subf (constant (F := F) S_ .f32 0x44000000#32) (sitofp .f32 c)) (constant (F := F) S_ .f32 0x00000000#32)))
    (Host.divf
      (rowSum (mulf (subf v (spread (meanV v))) (subf v (spread (meanV v)))))
      (broadcastInDim S16384x1 ![] bcast_S_S16384x1 (subf (constant (F := F) S_ .f32 0x44000000#32) (sitofp .f32 c))))
    (broadcastInDim S16384x1 ![] bcast_S_S16384x1 (id (constant (F := F) S_ .f32 0x7FC00000#32)))

/-- Layer normalisation of every row. -/
def lnV (v : FVec F S16384x512 .f32) (g b : FVec F S512 .f32) : FVec F S16384x512 .f32 :=
  addf
    (mulf
      (mulf (subf v (spread (meanV v)))
        (spread (Host.rsqrt (addf (varV v (constantI S_ 32 0#32)) (colConst 0x3727C5AC#32)))))
      (rows g))
    (rows b)

/-- The float 1 at every entry. -/
def ones : FVec F S16384x512 .f32 :=
  broadcastInDim S16384x512 ![] bcast_S_S16384x512 (constant (F := F) S_ .f32 0x3F800000#32)

/-- The logistic function as the reference spells it: `1 / (1 + exp (−u))`. -/
def sigV (u : FVec F S16384x512 .f32) : FVec F S16384x512 .f32 :=
  Host.divf (ones (F := F)) (addf (ones (F := F)) (Host.exp (Host.negf u)))

/-- A batch of rows projected onto the 1536 gate columns by a weight matrix stored [column, input]. -/
def gates (a : FVec F S16384x512 .f32) (w : FVec F S1536x512 .f32) : FVec F S16384x1536 .f32 :=
  Host.dotGeneral dot_S16384x512_S512x1536_S16384x1536_1_0_0_1_n_n none a
    (transpose S512x1536 [1, 0] w transposes_S1536x512_S512x1536_1_0)

/-- The reset, update and candidate column blocks of a projection. -/
def blk0 (p : FVec F S16384x1536 .f32) : FVec F S16384x512 .f32 :=
  extractStridedSlice S16384x512 ![0, 0] p slices_S16384x1536_S16384x512_0_0
def blk1 (p : FVec F S16384x1536 .f32) : FVec F S16384x512 .f32 :=
  extractStridedSlice S16384x512 ![0, 512] p slices_S16384x1536_S16384x512_0_512
def blk2 (p : FVec F S16384x1536 .f32) : FVec F S16384x512 .f32 :=
  extractStridedSlice S16384x512 ![0, 1024] p slices_S16384x1536_S16384x512_0_1024

/-- The reset gate. -/
def rV (a0 a1 : FVec F S16384x512 .f32) (a2 a3 : FVec F S1536x512 .f32) (a4 a5 : FVec F S512 .f32) : FVec F S16384x512 .f32 :=
  sigV (lnV (addf (blk0 (gates a0 a2)) (blk0 (gates a1 a3))) a4 a5)

/-- The update gate. -/
def zV (a0 a1 : FVec F S16384x512 .f32) (a2 a3 : FVec F S1536x512 .f32) (a6 a7 : FVec F S512 .f32) : FVec F S16384x512 .f32 :=
  sigV (lnV (addf (blk1 (gates a0 a2)) (blk1 (gates a1 a3))) a6 a7)

/-- The candidate state. -/
def nV (a0 a1 : FVec F S16384x512 .f32) (a2 a3 : FVec F S1536x512 .f32) (a4 a5 a8 a9 : FVec F S512 .f32) : FVec F S16384x512 .f32 :=
  Host.tanh (lnV (addf (blk2 (gates a0 a2)) (mulf (rV a0 a1 a2 a3 a4 a5) (blk2 (gates a1 a3)))) a8 a9)

/-- The reference's result. -/
def refOut (a0 a1 : FVec F S16384x512 .f32) (a2 a3 : FVec F S1536x512 .f32) (a4 a5 a6 a7 a8 a9 : FVec F S512 .f32) :
    FVec F S16384x512 .f32 :=
  addf (mulf (subf (ones (F := F)) (zV a0 a1 a2 a3 a6 a7)) (nV a0 a1 a2 a3 a4 a5 a8 a9)) (mulf (zV a0 a1 a2 a3 a6 a7) a1)

end Cert.ReferenceIdeal.RefTerm

end
-- ==== Proof.Consts.lean ====
/-
  The float constants the two programs spell, as the extended reals their binary words denote: 512 (the row
  length both means divide by), 1, 0, and +∞ (the bound the precondition compares against).
-/
import Idealize.ShloMosaic.PureOps.Ideal

noncomputable section

namespace Cert.Gru.Consts

open Idealize.ShloMosaic

/-- The word 0x44000000 is the real number 512. -/
theorem ofBits_512 : Ideal.ofBits .f32 0x44000000#32 = ((512 : ℝ) : EReal) := by
  simp [Ideal.ofBits, Ideal.ieee, -EReal.coe_mul]; norm_num

/-- The word 0x3F800000 is 1. -/
theorem ofBits_one : Ideal.ofBits .f32 0x3F800000#32 = 1 := by
  simp [Ideal.ofBits, Ideal.ieee, -EReal.coe_mul]; norm_num

/-- The word 0x00000000 is 0. -/
theorem ofBits_zero : Ideal.ofBits .f32 0x00000000#32 = 0 := by
  simp [Ideal.ofBits, Ideal.ieee]

/-- The word 0x7F800000 is +∞. -/
theorem ofBits_inf : Ideal.ofBits .f32 0x7F800000#32 = ⊤ := by
  simp [Ideal.ofBits, Ideal.ieee]

end Cert.Gru.Consts

end
-- ==== Proof.Algebra.lean ====
/-
  The algebra that joins the two variances.

  Over the reals, with μ = (∑ f) / 512,   (∑ f²) / 512 − μ² = (∑ (f − μ)²) / 512:
  expand the square, ∑ (f − μ)² = ∑ f² − 2 μ ∑ f + 512 μ², and use ∑ f = 512 μ. On the extended reals the identity
  fails at the infinities (⊤ − ⊤), so it is stated for rows all of whose entries are real numbers. In the cell the
  variance is only ever taken of three rows: the reset and update gates' inputs, which are sums of two projections
  (finite sums of products of reals), and the candidate's input, which adds a projection to a reset gate times a
  projection; the reset gate is a logistic, and the logistic of ANY extended real is a real number (0 at ⊥, 1 at ⊤).
  So all three rows are real-valued as soon as x, h and the two weight matrices are, whatever γ, β are.
-/
import proofs.«115454_j39745627357260_2_alg».proof.Proof.Spec
import proofs.«115454_j39745627357260_2_alg».proof.Proof.Consts
import Mathlib.Algebra.BigOperators.Field
import Mathlib.Tactic.Ring
import Mathlib.Tactic.NormNum
import Mathlib.Tactic.FieldSimp

noncomputable section

open scoped BigOperators

namespace Cert.Gru

open Idealize.ShloMosaic Idealize.ShloMosaic.ValueIdx

/-! ### Real-valued extended reals -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion ℝ → EReal commutes with finite sums. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.sum {ι : Type} (s : Finset ι) (f : ι → EReal) (hf : ∀ k, IsReal (f k)) : IsReal (∑ k ∈ s, f k) := by
  choose g hg using hf
  exact ⟨∑ k ∈ s, g k, by rw [coe_sum]; exact Finset.sum_congr rfl fun k _ => hg k⟩

/-- The logistic of any extended real is a real number: 0 at ⊥, 1 at ⊤, (1 + e^{−r})⁻¹ at a real r. -/
theorem isReal_logistic (x : EReal) : IsReal (Ideal.logistic x) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-! ### Mean and the two variances of a real row -/

/-- Dividing by the word for 512 is multiplying by the real 1/512. -/
theorem div_c512 (x : EReal) : Ideal.div x c512 = x * ((1 / 512 : ℝ) : EReal) := by
  rw [show c512 = ((512 : ℝ) : EReal) from Consts.ofBits_512]
  exact Ideal.div_coe (by norm_num) x

theorem mean_coe (f : Fin 512 → ℝ) :
    mean (fun k => (f k : EReal)) = (((∑ k, f k) * (1 / 512) : ℝ) : EReal) := by
  rw [mean, div_c512, ← coe_sum, ← EReal.coe_mul]

theorem var1_coe (f : Fin 512 → ℝ) :
    var1 (fun k => (f k : EReal))
      = (((∑ k, f k * f k) * (1 / 512) - ((∑ k, f k) * (1 / 512)) * ((∑ k, f k) * (1 / 512)) : ℝ) : EReal) := by
  rw [var1, div_c512, mean_coe]
  simp only [← EReal.coe_mul]
  rw [← coe_sum, ← EReal.coe_mul, ← EReal.coe_sub]

theorem var2_coe (f : Fin 512 → ℝ) :
    var2 (fun k => (f k : EReal))
      = (((∑ k, (f k - (∑ k, f k) * (1 / 512)) * (f k - (∑ k, f k) * (1 / 512))) * (1 / 512) : ℝ) : EReal) := by
  rw [var2, div_c512, mean_coe]
  simp only [← EReal.coe_sub, ← EReal.coe_mul]
  rw [← coe_sum, ← EReal.coe_mul]

/-- The identity over ℝ: the mean of the squares minus the square of the mean is the mean of the squared deviations. -/
theorem real_var (f : Fin 512 → ℝ) :
    (∑ k, f k * f k) * (1 / 512) - ((∑ k, f k) * (1 / 512)) * ((∑ k, f k) * (1 / 512))
      = (∑ k, (f k - (∑ k, f k) * (1 / 512)) * (f k - (∑ k, f k) * (1 / 512))) * (1 / 512) := by
  generalize hμ : (∑ k, f k) * (1 / 512) = μ
  have hS : ∑ k, f k = 512 * μ := by rw [← hμ]; ring
  have hexp : ∀ k, (f k - μ) * (f k - μ) = f k * f k - 2 * μ * f k + μ * μ := fun k => by ring
  have hsum : ∑ k, (f k - μ) * (f k - μ) = ∑ k, f k * f k - 2 * μ * ∑ k, f k + 512 * (μ * μ) := by
    simp only [hexp, Finset.sum_add_distrib, Finset.sum_sub_distrib, ← Finset.mul_sum, Finset.sum_const,
      Finset.card_univ, Fintype.card_fin, nsmul_eq_mul]
    push_cast; ring
  rw [hsum, hS]; ring

/-- On a row of real numbers the one-pass and the two-pass variance agree. -/
theorem var1_eq_var2 (v : Row) (hv : ∀ k, ∃ r : ℝ, v k = (r : EReal)) : var1 v = var2 v := by
  choose f hf using hv
  obtain rfl : v = fun k => (f k : EReal) := funext hf
  rw [var1_coe, var2_coe, real_var]

/-! ### The three rows the cell takes a variance of -/

theorem isReal_proj (xrow : Row) (W : Fin 1536 → Fin 512 → EReal) (hx : ∀ k, IsReal (xrow k))
    (hW : ∀ c k, IsReal (W c k)) (c : Fin 1536) : IsReal (proj xrow W c) :=
  IsReal.sum _ _ fun k => (hx k).mul (hW c k)

theorem isReal_preR (px ph : Fin 1536 → EReal) (hpx : ∀ c, IsReal (px c)) (hph : ∀ c, IsReal (ph c)) (i : Fin 512) :
    IsReal (preR px ph i) := (hpx _).add (hph _)

theorem isReal_preZ (px ph : Fin 1536 → EReal) (hpx : ∀ c, IsReal (px c)) (hph : ∀ c, IsReal (ph c)) (i : Fin 512) :
    IsReal (preZ px ph i) := (hpx _).add (hph _)

theorem isReal_preN (px ph : Fin 1536 → EReal) (r : Row) (hpx : ∀ c, IsReal (px c)) (hph : ∀ c, IsReal (ph c))
    (hr : ∀ i, IsReal (r i)) (i : Fin 512) : IsReal (preN px ph r i) := (hpx _).add ((hr i).mul (hph _))

theorem gateR_var1_eq_var2 (px ph : Fin 1536 → EReal) (hpx : ∀ c, IsReal (px c)) (hph : ∀ c, IsReal (ph c))
    (gr br : Row) : gateR var1 px ph gr br = gateR var2 px ph gr br := by
  funext i
  rw [gateR, gateR, var1_eq_var2 _ (isReal_preR px ph hpx hph)]

theorem gateZ_var1_eq_var2 (px ph : Fin 1536 → EReal) (hpx : ∀ c, IsReal (px c)) (hph : ∀ c, IsReal (ph c))
    (gz bz : Row) : gateZ var1 px ph gz bz = gateZ var2 px ph gz bz := by
  funext i
  rw [gateZ, gateZ, var1_eq_var2 _ (isReal_preZ px ph hpx hph)]

theorem cand_var1_eq_var2 (px ph : Fin 1536 → EReal) (hpx : ∀ c, IsReal (px c)) (hph : ∀ c, IsReal (ph c))
    (r gn bn : Row) (hr : ∀ i, IsReal (r i)) : cand var1 px ph r gn bn = cand var2 px ph r gn bn := by
  funext i
  rw [cand, cand, var1_eq_var2 _ (isReal_preN px ph r hpx hph hr)]

/-- The cell with real-valued projections does not see which variance it is given. -/
theorem cell_var1_eq_var2 (px ph : Fin 1536 → EReal) (hpx : ∀ c, IsReal (px c)) (hph : ∀ c, IsReal (ph c))
    (hrow gr br gz bz gn bn : Row) (j : Fin 512) :
    cell var1 px ph hrow gr br gz bz gn bn j = cell var2 px ph hrow gr br gz bz gn bn j := by
  rw [cell, cell, gateZ_var1_eq_var2 px ph hpx hph, gateR_var1_eq_var2 px ph hpx hph,
    cand_var1_eq_var2 px ph hpx hph (gateR var2 px ph gr br) gn bn fun i => isReal_logistic _]

/-- The result entry with the one-pass variance is the result entry with the two-pass variance, as soon as
    x, h and the two weight matrices are real-valued. -/
theorem Gat_var1_eq_var2 (x h : (⟨2, ![16384, 512]⟩ : Shape).Idx → EReal) (wi wh : (⟨2, ![1536, 512]⟩ : Shape).Idx → EReal)
    (gr br gz bz gn bn : (⟨1, ![512]⟩ : Shape).Idx → EReal)
    (hx : ∀ i, ∃ r : ℝ, x i = (r : EReal)) (hh : ∀ i, ∃ r : ℝ, h i = (r : EReal))
    (hwi : ∀ i, ∃ r : ℝ, wi i = (r : EReal)) (hwh : ∀ i, ∃ r : ℝ, wh i = (r : EReal)) (b : Fin 16384) (j : Fin 512) :
    Gat var1 x h wi wh gr br gz bz gn bn b j = Gat var2 x h wi wh gr br gz bz gn bn b j := by
  rw [Gat, Gat]
  exact cell_var1_eq_var2 _ _
    (isReal_proj _ _ (fun k => hx _) fun c k => hwi _) (isReal_proj _ _ (fun k => hh _) fun c k => hwh _) _ _ _ _ _ _ _ j

end Cert.Gru

end
-- ==== Proof.Finite.lean ====
/-
  Finiteness from the precondition.

  The printed precondition is the conjunction of ten statements "every entry of the array has |a| < +∞", each the
  reduction by `and` over all axes of the elementwise comparison of |a| against the broadcast word 0x7F800000 (+∞).
  A conjunction that is 1 has both conjuncts 1; a reduction by `and` that is 1 had 1 at every entry; and an extended
  real x with max x (−x) < ⊤ is neither ⊤ nor ⊥, hence a real number. Only the first four arrays (x, h and the two
  weight matrices) are read back.
-/
import proofs.«115454_j39745627357260_2_alg».proof.Proof.Gen.Pre_finite_inputs
import proofs.«115454_j39745627357260_2_alg».proof.Proof.Consts
import Idealize.ShloMosaic.Lib.ReduceAll
import Idealize.ShloMosaic.Lib.ValueIdx
import Idealize.ShloMosaic.Lib.Pipeline.Value

noncomputable section

namespace Cert.Gru

open Idealize.ShloMosaic Idealize.ShloMosaic.ValueIdx

/-- The result shape of a reduction over all axes has one index. -/
instance subsingleton_S_Idx : Subsingleton Cert.Pre_finite_inputs.S_.Idx := ⟨fun a b => funext fun d => d.elim0⟩

/-- An extended real whose absolute value compares below the word for +∞ is a real number. -/
theorem isReal_of_abs_lt_inf (x : Ideal .f32)
    (h : FloatOps.cmpf .olt (FloatOps.hostAbsf x) (Ideal.ofBits .f32 0x7F800000#32 : Ideal .f32) = 1#1) :
    ∃ r : ℝ, (x : EReal) = (r : EReal) := by
  rw [Consts.ofBits_inf] at h
  change Ideal.cmp .olt (max (x : EReal) (-(x : EReal))) ⊤ = 1#1 at h
  unfold Ideal.cmp at h
  induction x using EReal.rec with
  | bot => simp at h
  | coe r => exact ⟨r, rfl⟩
  | top => simp at h

/-- One statement "every entry has |a| < +∞" that is 1 makes every entry of `a` a real number. -/
theorem all_finite {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf a) (broadcastInDim s ![] hb (constant (F := Ideal) Cert.Pre_finite_inputs.S_ .f32 0x7F800000#32)))
          init hr hu ix0 = 1#1) (i : s.Idx) : ∃ r : ℝ, a i = (r : EReal) := by
  have h := Host.reduce_andi_all _ _ _ _ _ e i
  rw [cmpf_apply, broadcastInDim_apply _ _ _ i ix0 (fun d => d.elim0), constant_apply] at h
  exact isReal_of_abs_lt_inf (a i) h

/-- A conjunction of two one-bit arrays that is 1 at an index has both conjuncts 1 there. -/
theorem andi_apply_eq_one {s : Shape} (x y : IVec s 1) (i : s.Idx) (h : andi x y i = 1#1) : x i = 1#1 ∧ y i = 1#1 :=
  IntOp.andi_eq_one.1 h

/-- The precondition makes x, h and the two weight matrices real-valued. -/
theorem finite_of_pre (a0 a1 : FVec Ideal Cert.Pre_finite_inputs.S16384x512 .f32) (a2 a3 : FVec Ideal Cert.Pre_finite_inputs.S1536x512 .f32)
    (a4 a5 a6 a7 a8 a9 : FVec Ideal Cert.Pre_finite_inputs.S512 .f32)
    (hpre : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h := congrFun hpre ix0
  dsimp only [Cert.Pre_finite_inputs.fn, Cert.Pre_finite_inputs.fn_part1, Cert.Pre_finite_inputs.fn_part2] at h
  -- peel the six trailing conjuncts (the arrays of length 512), then split the remaining four
  have h := (andi_apply_eq_one _ _ _ h).1
  have h := (andi_apply_eq_one _ _ _ h).1
  have h := (andi_apply_eq_one _ _ _ h).1
  have h := (andi_apply_eq_one _ _ _ h).1
  have h := (andi_apply_eq_one _ _ _ h).1
  have h := (andi_apply_eq_one _ _ _ h).1
  obtain ⟨h, h3⟩ := andi_apply_eq_one _ _ _ h
  obtain ⟨h, h2⟩ := andi_apply_eq_one _ _ _ h
  obtain ⟨h0, h1⟩ := andi_apply_eq_one _ _ _ h
  exact ⟨all_finite a0 _ _ _ _ h0, all_finite a1 _ _ _ _ h1, all_finite a2 _ _ _ _ h2, all_finite a3 _ _ _ _ h3⟩

end Cert.Gru

end
-- ==== Proof.Assemble.lean ====
/-
  The assembly: the certificate's claim from three facts about the two programs.

  Given (1) the kernel's run ends with its result array equal to the cell `G` taken with the one-pass variance of the
  argument arrays, the arguments unchanged; (2) the reference's run ends with its result array equal to the reference's
  result term of the argument arrays, the arguments unchanged; (3) the reference's result term read at an index is the
  cell's entry `Gat` taken with the two-pass variance — the claim follows: the two frames of the kernel are the
  generated ones, the reference's frame is (2) without its first conjunct, and the two results agree because under
  the precondition x, h and the two weight matrices are real-valued, and on real-valued rows the two variances are
  one number.
-/
import proofs.«115454_j39745627357260_2_alg».proof.Defs
import proofs.«115454_j39745627357260_2_alg».proof.Proof.Gen.Kernel
import proofs.«115454_j39745627357260_2_alg».proof.Proof.Gen.KernelIdeal
import proofs.«115454_j39745627357260_2_alg».proof.Proof.Gen.ReferenceIdeal
import proofs.«115454_j39745627357260_2_alg».proof.Proof.Gen.Pre_finite_inputs
import proofs.«115454_j39745627357260_2_alg».proof.Proof.Gen.Kernel.Frame
import proofs.«115454_j39745627357260_2_alg».proof.Proof.Gen.KernelIdeal.Frame
import proofs.«115454_j39745627357260_2_alg».proof.Proof.Spec
import proofs.«115454_j39745627357260_2_alg».proof.Proof.RefTerm
import proofs.«115454_j39745627357260_2_alg».proof.Proof.Algebra
import proofs.«115454_j39745627357260_2_alg».proof.Proof.Finite

noncomputable section

namespace Cert.Proof.Assemble

open Idealize.ShloMosaic Idealize.ShloMosaic.TcCoe Idealize.SL.Sem Idealize.ShloMosaic.ValueIdx

/-- The reference's result term is the cell with the one-pass variance, on arguments satisfying the precondition:
    index by index it is the cell's entry with the two-pass variance, and the two variances agree on real rows. -/
theorem refOut_eq_G
    (hval : ∀ (a0 a1 : FVec Ideal Cert.ReferenceIdeal.S16384x512 .f32) (a2 a3 : FVec Ideal Cert.ReferenceIdeal.S1536x512 .f32)
        (a4 a5 a6 a7 a8 a9 : FVec Ideal Cert.ReferenceIdeal.S512 .f32) (b : Fin 16384) (j : Fin 512),
        Cert.ReferenceIdeal.RefTerm.refOut (F := Ideal) a0 a1 a2 a3 a4 a5 a6 a7 a8 a9 (Idealize.ShloMosaic.ValueIdx.ix2 b j)
          = Cert.Gru.Gat Cert.Gru.var2 a0 a1 a2 a3 a4 a5 a6 a7 a8 a9 b j)
    (a0 a1 : FVec Ideal Cert.ReferenceIdeal.S16384x512 .f32) (a2 a3 : FVec Ideal Cert.ReferenceIdeal.S1536x512 .f32)
    (a4 a5 a6 a7 a8 a9 : FVec Ideal Cert.ReferenceIdeal.S512 .f32)
    (hpre : Cert.Pre_finite_inputs.fn (F := Ideal) a0 a1 a2 a3 a4 a5 a6 a7 a8 a9 = fun _ => 1#1) :
    Cert.ReferenceIdeal.RefTerm.refOut (F := Ideal) a0 a1 a2 a3 a4 a5 a6 a7 a8 a9
      = Cert.Gru.G Cert.Gru.var1 a0 a1 a2 a3 a4 a5 a6 a7 a8 a9 := by
  obtain ⟨f0, f1, f2, f3⟩ := Cert.Gru.finite_of_pre a0 a1 a2 a3 a4 a5 a6 a7 a8 a9 hpre
  funext i
  obtain ⟨b, j, rfl⟩ : ∃ (b : Fin 16384) (j : Fin 512), i = ix2 b j := ⟨i 0, i 1, eq_ix2 i⟩
  refine (hval a0 a1 a2 a3 a4 a5 a6 a7 a8 a9 b j).trans ?_
  refine Eq.trans ?_ (Cert.Gru.G_ix2 Cert.Gru.var1 a0 a1 a2 a3 a4 a5 a6 a7 a8 a9 b j).symm
  exact (Cert.Gru.Gat_var1_eq_var2 a0 a1 a2 a3 a4 a5 a6 a7 a8 a9 f0 f1 f2 f3 b j).symm

/-- At the ideal instance the two programs, run from memories agreeing on the arguments that satisfy the
    precondition, end with equal results and unchanged arguments. -/
theorem algebraic
    (hker : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v10)
            = Cert.Gru.G Cert.Gru.var1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)))
    (href : ∀ (m : (ℓ : Loc Cert.ReferenceIdeal.nD Cert.ReferenceIdeal.τ Cert.ReferenceIdeal.sig) → Buf (Elt Ideal) ℓ) (ρ : Dev Cert.ReferenceIdeal.nD → PrngReg),
        θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
          r.2.mem ((c.tc : Thread Cert.ReferenceIdeal.nD Cert.ReferenceIdeal.τ).loc Cert.ReferenceIdeal.main_v85)
            = Cert.ReferenceIdeal.RefTerm.refOut (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)))
    (hval : ∀ (a0 a1 : FVec Ideal Cert.ReferenceIdeal.S16384x512 .f32) (a2 a3 : FVec Ideal Cert.ReferenceIdeal.S1536x512 .f32)
        (a4 a5 a6 a7 a8 a9 : FVec Ideal Cert.ReferenceIdeal.S512 .f32) (b : Fin 16384) (j : Fin 512),
        Cert.ReferenceIdeal.RefTerm.refOut (F := Ideal) a0 a1 a2 a3 a4 a5 a6 a7 a8 a9 (Idealize.ShloMosaic.ValueIdx.ix2 b j)
          = Cert.Gru.Gat Cert.Gru.var2 a0 a1 a2 a3 a4 a5 a6 a7 a8 a9 b j) :
    Cert.algebraic_KernelIdeal_ReferenceIdeal := by
  intro m ρ m' ρ' hpre hagree
  refine ⟨fun c => Cert.Gru.G Cert.Gru.var1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), hker m ρ, ?_⟩
  refine (θ_run Cert.ReferenceIdeal.defs _ _).mono (fun _ h c => ⟨(h c).1.trans ?_, (h c).2⟩) (href m' ρ')
  obtain ⟨e0, e1, e2, e3, e4, e5, e6, e7, e8, e9⟩ := hagree c
  rw [e0, e1, e2, e3, e4, e5, e6, e7, e8, e9]
  exact refOut_eq_G hval _ _ _ _ _ _ _ _ _ _ (hpre c)

/-- The certificate's claim, from the kernel's run, the reference's run, and the reference's term read at an index. -/
theorem claim_of
    (hker : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v10)
            = Cert.Gru.G Cert.Gru.var1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)))
    (href : ∀ (m : (ℓ : Loc Cert.ReferenceIdeal.nD Cert.ReferenceIdeal.τ Cert.ReferenceIdeal.sig) → Buf (Elt Ideal) ℓ) (ρ : Dev Cert.ReferenceIdeal.nD → PrngReg),
        θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
          r.2.mem ((c.tc : Thread Cert.ReferenceIdeal.nD Cert.ReferenceIdeal.τ).loc Cert.ReferenceIdeal.main_v85)
            = Cert.ReferenceIdeal.RefTerm.refOut (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)))
    (hval : ∀ (a0 a1 : FVec Ideal Cert.ReferenceIdeal.S16384x512 .f32) (a2 a3 : FVec Ideal Cert.ReferenceIdeal.S1536x512 .f32)
        (a4 a5 a6 a7 a8 a9 : FVec Ideal Cert.ReferenceIdeal.S512 .f32) (b : Fin 16384) (j : Fin 512),
        Cert.ReferenceIdeal.RefTerm.refOut (F := Ideal) a0 a1 a2 a3 a4 a5 a6 a7 a8 a9 (Idealize.ShloMosaic.ValueIdx.ix2 b j)
          = Cert.Gru.Gat Cert.Gru.var2 a0 a1 a2 a3 a4 a5 a6 a7 a8 a9 b j) :
    Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (href m ρ),
    trivial,
    algebraic hker href hval⟩

end Cert.Proof.Assemble

end
-- ==== Proof.LibColumn.lean ====
/-
  Three layout operations on a column, each read at an index by its coordinates: a column `[a, 1]` broadcast
  along its unit axis to `[a, b]` reads the column's row; a vector `[a]` cast to the column `[a, 1]` reads the
  vector at the row; and any array cast to a shape of the same extents is itself. Together they are what a
  row-wise reduction kept as a column (`sum(axis = 1, keepdims = True)`) and a per-row factor spread over a
  row's lanes need. General in the extents and the element type.
-/
import Idealize.ShloMosaic.Lib.ValueIdx
import Idealize.ShloMosaic.Lib.ValueLayout
import Idealize.ShloMosaic.Lib.Pipeline.Value

noncomputable section

namespace Idealize.ShloMosaic.ValueIdx

variable {α : Type}

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx

end
-- ==== Proof.KerIdioms.lean ====
/-
  The idioms of the kernel body, read at an index of a 512 × 512 block (extended reals).

  The body normalises a block row by row with the same few vector operations three times over: a lane sum kept as a
  column, the column divided by 512, the column spread back over the lanes. `lnCore v` is that normalisation,
  `(v − mean) · rsqrt (E[v²] − mean² + ε)` with the mean and the mean of squares taken per row, and `affine u γ β` the
  scale and shift by two row vectors that follows it. Read at `(p, q)` they are Cert.Gru's `mean`, `var1` and `ln` of row `p`.
  The matrix products read at an index are plain sums over the 512 inputs, and the three column blocks of a
  projection are read at the shifted column.
-/
import proofs.«115454_j39745627357260_2_alg».proof.Proof.Gen.KernelIdeal.Skeleton
import proofs.«115454_j39745627357260_2_alg».proof.Proof.Spec
import proofs.«115454_j39745627357260_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerPay

open Cert.KernelIdeal Cert.KernelIdeal.Gen Idealize.ShloMosaic Idealize.ShloMosaic.TcCoe Idealize.ShloMosaic.ValueIdx

/-- The row sums of a block, as a vector of 512 entries. -/
abbrev laneSum (v : FVec Ideal S512x512 .f32) : FVec Ideal S512 .f32 :=
  multiReduction .add [1] S512 v 0x00000000#32 reduces_S512x512_S512 (.inl rfl) rfl

/-- A vector of 512 row values as a column, divided by 512. -/
abbrev colDiv (s : FVec Ideal S512 .f32) : FVec Ideal S512x1 .f32 :=
  divf (shapeCast S512x1 s shapeCasts_S512_S512x1) (broadcast S512x1 (Scalar.ofBits (F := Ideal) .f32 0x44000000#32))

/-- The row means, as a column. -/
abbrev meanCol (v : FVec Ideal S512x512 .f32) : FVec Ideal S512x1 .f32 := colDiv (laneSum v)

/-- A column spread over the 512 lanes of each row. -/
abbrev lanes (c : FVec Ideal S512x1 .f32) : FVec Ideal S512x512 .f32 := broadcastTo S512x512 c broadcasts_S512x1_S512x512

/-- The normalisation: `(v − mean) · rsqrt (E[v²] − mean² + ε)`, row by row. -/
def lnCore (v : FVec Ideal S512x512 .f32) : FVec Ideal S512x512 .f32 :=
  mulf (subf v (lanes (meanCol v)))
    (lanes (rsqrt (addf (subf (colDiv (laneSum (mulf v v))) (mulf (meanCol v) (meanCol v)))
      (broadcast S512x1 (Scalar.ofBits (F := Ideal) .f32 0x3727C5AC#32)))))

/-- A row vector held as a 1 × 512 block, repeated on every row. -/
abbrev rowsOf (g : FVec Ideal S1x512 .f32) : FVec Ideal S512x512 .f32 :=
  broadcastTo S512x512 (shapeCast S1x512 g shapeCasts_S1x512_S1x512) broadcasts_S1x512_S512x512

/-- Scale by `γ` and shift by `β`, lane by lane. -/
def affine (u : FVec Ideal S512x512 .f32) (g b : FVec Ideal S1x512 .f32) : FVec Ideal S512x512 .f32 :=
  addf (mulf u (rowsOf g)) (rowsOf b)

/-- A lane sum at row `p` is the sum of the row's 512 entries. -/
theorem laneSum_apply (v : FVec Ideal S512x512 .f32) (p : Fin 512) : laneSum v (ix1 p) = ∑ k : Fin 512, v (ix2 p k) := by
  refine (Ideal.multiReduction_add_single v 0x00000000#32 reduces_S512x512_S512 (.inl rfl) rfl (ix1 p)).trans ?_
  refine Finset.sum_congr rfl fun k _ => congrArg v (funext fun a => Fin.ext ?_)
  match a with
  | ⟨0, _⟩ => rfl
  | ⟨1, _⟩ => rfl

/-- The column of row values divided by 512, at row `p`. -/
theorem colDiv_apply (s : FVec Ideal S512 .f32) (p : Fin 512) (u : Fin 1) :
    colDiv s (ix2 p u) = Ideal.div (s (ix1 p)) Cert.Gru.c512 := by
  show Ideal.div (shapeCast S512x1 s shapeCasts_S512_S512x1 (ix2 p u)) _ = _
  rw [shapeCast_a_a1_apply s shapeCasts_S512_S512x1 p u]
  rfl

/-- The mean column at row `p` is the mean of row `p`. -/
theorem meanCol_apply (v : FVec Ideal S512x512 .f32) (p : Fin 512) (u : Fin 1) :
    meanCol v (ix2 p u) = Cert.Gru.mean (fun k => v (ix2 p k)) := by
  show colDiv (laneSum v) (ix2 p u) = _
  rw [colDiv_apply, laneSum_apply]; rfl

/-- A column spread over the lanes reads the column's row. -/
theorem lanes_apply (c : FVec Ideal S512x1 .f32) (p q : Fin 512) : lanes c (ix2 p q) = c (ix2 p (0 : Fin 1)) :=
  broadcastTo_a1_ab_apply c broadcasts_S512x1_S512x512 p q

/-- A row vector repeated on every row reads the vector at the lane. -/
theorem rowsOf_apply (g : FVec Ideal S1x512 .f32) (p q : Fin 512) : rowsOf g (ix2 p q) = g (ix2 (0 : Fin 1) q) := by
  show broadcastTo S512x512 (shapeCast S1x512 g shapeCasts_S1x512_S1x512) broadcasts_S1x512_S512x512 (ix2 p q) = _
  rw [shapeCast_self g shapeCasts_S1x512_S1x512]
  exact broadcastTo_1b_ab_apply g broadcasts_S1x512_S512x512 p q

/-- The normalisation at `(p, q)`: the entry minus its row's mean, times `rsqrt` of the row's one-pass variance plus ε. -/
theorem lnCore_apply (v : FVec Ideal S512x512 .f32) (p q : Fin 512) :
    lnCore v (ix2 p q)
      = (v (ix2 p q) - Cert.Gru.mean (fun k => v (ix2 p k)))
          * Ideal.rsqrt (Cert.Gru.var1 (fun k => v (ix2 p k)) + Cert.Gru.eps) := by
  unfold lnCore
  show (v (ix2 p q) - lanes (meanCol v) (ix2 p q)) * lanes _ (ix2 p q) = _
  rw [lanes_apply, lanes_apply, meanCol_apply]
  show _ * Ideal.rsqrt ((colDiv (laneSum (mulf v v)) (ix2 p (0 : Fin 1)) - meanCol v (ix2 p (0 : Fin 1)) * meanCol v (ix2 p (0 : Fin 1))) + Cert.Gru.eps) = _
  rw [colDiv_apply, laneSum_apply, meanCol_apply]
  rfl

/-- The scale and shift at `(p, q)`. -/
theorem affine_apply (u : FVec Ideal S512x512 .f32) (g b : FVec Ideal S1x512 .f32) (p q : Fin 512) :
    affine u g b (ix2 p q) = u (ix2 p q) * g (ix2 (0 : Fin 1) q) + b (ix2 (0 : Fin 1) q) := by
  unfold affine
  show u (ix2 p q) * rowsOf g (ix2 p q) + rowsOf b (ix2 p q) = _
  rw [rowsOf_apply, rowsOf_apply]

end Cert.KernelIdeal.KerPay

end
-- ==== Proof.KerPay.lean ====
/-
  The kernel body's stored block, read at an index: the cell of Cert.Gru with the one-pass variance.

  The body's payload is, by unfolding alone, the structured expression `bodyOf`: the two projections `X = x · Wᵢ`,
  `H = h · Wₕ` (the operands rounded to a narrower format on the way in, which is the identity on the extended reals),
  their column blocks, three times the normalisation followed by scale and shift, the logistic function twice and tanh once,
  and the convex combination `(1 − z) · n + z · h`. Each piece read at `(p, q)` is Cert.Gru's: a projection is a sum over the
  512 inputs, a column block reads the shifted column, the normalisation is `ln` with `var1` of row `p`.
-/
import proofs.«115454_j39745627357260_2_alg».proof.Proof.KerIdioms

noncomputable section

open scoped BigOperators

namespace Cert.KernelIdeal.KerPay

open Cert.KernelIdeal Cert.KernelIdeal.Gen Idealize.ShloMosaic Idealize.ShloMosaic.TcCoe Idealize.ShloMosaic.ValueIdx

/-! ## The matrix product at an index -/

/-- The dimension numbers of the body's two products: rows × inputs times inputs × columns. -/
abbrev D := dot_S512x512_S512x1536_S512x1536_1_0_0_1_n_n

theorem lhs_row (i : S512x1536.Idx) (q : D.contr.Idx) : (D.lhsIdx i q 0).val = (i 0).val := by
  unfold DotDims.lhsIdx
  rw [dif_neg (show ¬(0 : Fin S512x512.rank) ∈ D.lhsBatch by decide), dif_pos (show (0 : Fin S512x512.rank) ∈ D.lhsNonContracting by decide)]
  rfl

theorem lhs_in (i : S512x1536.Idx) (q : D.contr.Idx) : (D.lhsIdx i q 1).val = (q ⟨0, by decide⟩).val :=
  D.lhsIdx_val_of_single rfl i q

theorem rhs_in (i : S512x1536.Idx) (q : D.contr.Idx) : (D.rhsIdx i q 0).val = (q ⟨0, by decide⟩).val :=
  D.rhsIdx_val_of_single rfl i q

theorem rhs_col (i : S512x1536.Idx) (q : D.contr.Idx) : (D.rhsIdx i q 1).val = (i 1).val := by
  unfold DotDims.rhsIdx
  rw [dif_neg (show ¬(1 : Fin S512x1536.rank) ∈ D.rhsBatch by decide), dif_pos (show (1 : Fin S512x1536.rank) ∈ D.rhsNonContracting by decide)]
  rfl

/-- The product of a block of rows with a weight matrix, into a zero accumulator, at `(p, c)`: the sum over the 512 inputs. -/
theorem mm_apply (x : FVec Ideal S512x512 .f32) (w : FVec Ideal S512x1536 .bf16) (p : Fin 512) (c : Fin 1536) :
    matmul D none (truncf .bf16 x bitsLt_bf16_f32) (shapeCast S512x1536 w shapeCasts_S512x1536_S512x1536)
        (constant (F := Ideal) S512x1536 .f32 0x00000000#32) (ix2 p c)
      = ∑ k : Fin 512, x (ix2 p k) * w (ix2 k c) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p c) ((contrEquiv1 D 512 rfl rfl).symm k) = ix2 p k := funext fun a => Fin.ext (by
    match a with
    | ⟨0, _⟩ => exact lhs_row _ _
    | ⟨1, _⟩ => exact (lhs_in _ _).trans hk)
  have er : D.rhsIdx (ix2 p c) ((contrEquiv1 D 512 rfl rfl).symm k) = ix2 k c := funext fun a => Fin.ext (by
    match a with
    | ⟨0, _⟩ => exact (rhs_in _ _).trans hk
    | ⟨1, _⟩ => exact rhs_col _ _)
  rw [el, er, shapeCast_self]
  rfl

theorem pay2_apply (x : FVec Ideal S512x512 .f32) (w : FVec Ideal S512x1536 .bf16) (p : Fin 512) (c : Fin 1536) :
    k0_pay2 x w (ix2 p c) = ∑ k : Fin 512, x (ix2 p k) * w (ix2 k c) := mm_apply x w p c

theorem pay3_apply (x : FVec Ideal S512x512 .f32) (w : FVec Ideal S512x1536 .bf16) (p : Fin 512) (c : Fin 1536) :
    k0_pay3 x w (ix2 p c) = ∑ k : Fin 512, x (ix2 p k) * w (ix2 k c) := mm_apply x w p c

/-! ## The three column blocks of a projection -/

abbrev blkR (P : FVec Ideal S512x1536 .f32) : FVec Ideal S512x512 .f32 :=
  extractStridedSlice S512x512 ![0, 0] P slices_S512x1536_o0_0_S512x512
abbrev blkZ (P : FVec Ideal S512x1536 .f32) : FVec Ideal S512x512 .f32 :=
  extractStridedSlice S512x512 ![0, 512] P slices_S512x1536_o0_512_S512x512
abbrev blkN (P : FVec Ideal S512x1536 .f32) : FVec Ideal S512x512 .f32 :=
  extractStridedSlice S512x512 ![0, 1024] P slices_S512x1536_o0_1024_S512x512

theorem blkR_apply (P : FVec Ideal S512x1536 .f32) (p q : Fin 512) : blkR P (ix2 p q) = P (ix2 p (Cert.Gru.col0 q)) :=
  slice2_axis1_apply 0 P slices_S512x1536_o0_0_S512x512 p q (Cert.Gru.col0 q) (by show q.val = 0 + q.val; omega)
theorem blkZ_apply (P : FVec Ideal S512x1536 .f32) (p q : Fin 512) : blkZ P (ix2 p q) = P (ix2 p (Cert.Gru.col1 q)) :=
  slice2_axis1_apply 512 P slices_S512x1536_o0_512_S512x512 p q (Cert.Gru.col1 q) (by show q.val + 512 = 512 + q.val; omega)
theorem blkN_apply (P : FVec Ideal S512x1536 .f32) (p q : Fin 512) : blkN P (ix2 p q) = P (ix2 p (Cert.Gru.col2 q)) :=
  slice2_axis1_apply 1024 P slices_S512x1536_o0_1024_S512x512 p q (Cert.Gru.col2 q) (by show q.val + 1024 = 1024 + q.val; omega)

/-! ## The body's payload, structured -/

/-- The reset gate over a block. -/
def gR (x h : FVec Ideal S512x512 .f32) (wi wh : FVec Ideal S512x1536 .bf16) (gr br : FVec Ideal S1x512 .f32) : FVec Ideal S512x512 .f32 :=
  logistic (affine (lnCore (addf (blkR (k0_pay2 x wi)) (blkR (k0_pay3 h wh)))) gr br)

/-- The update gate over a block. -/
def gZ (x h : FVec Ideal S512x512 .f32) (wi wh : FVec Ideal S512x1536 .bf16) (gz bz : FVec Ideal S1x512 .f32) : FVec Ideal S512x512 .f32 :=
  logistic (affine (lnCore (addf (blkZ (k0_pay2 x wi)) (blkZ (k0_pay3 h wh)))) gz bz)

/-- The candidate's input over a block. -/
def pN (x h : FVec Ideal S512x512 .f32) (wi wh : FVec Ideal S512x1536 .bf16) (gr br : FVec Ideal S1x512 .f32) : FVec Ideal S512x512 .f32 :=
  addf (blkN (k0_pay2 x wi)) (mulf (gR x h wi wh gr br) (blkN (k0_pay3 h wh)))

/-- The stored block. -/
def bodyOf (x h : FVec Ideal S512x512 .f32) (wi wh : FVec Ideal S512x1536 .bf16) (gr br gz bz gn bn : FVec Ideal S1x512 .f32) :
    FVec Ideal S512x512 .f32 :=
  addf (mulf (subf (broadcast S512x512 (Scalar.ofBits (F := Ideal) .f32 0x3F800000#32)) (gZ x h wi wh gz bz))
      (tanh (affine (lnCore (pN x h wi wh gr br)) gn bn)))
    (mulf (gZ x h wi wh gz bz) h)

set_option maxHeartbeats 1000000 in
/-- The printed payload is that expression: the same operations in the same order, the intermediate values named. -/
theorem pay_eq_bodyOf (x h : FVec Ideal S512x512 .f32) (wi wh : FVec Ideal S512x1536 .bf16) (gr br gz bz gn bn : FVec Ideal S1x512 .f32) :
    k0_pay1 h (k0_pay11 (k0_pay4 x wi) (k0_pay6 h wh) gz bz)
        (k0_pay12 (k0_pay5 x wi) (k0_pay7 h wh) (k0_pay8 br) (k0_pay9 x h wi wh) (k0_pay10 gr))
        (k0_pay13 gn) (k0_pay14 bn)
        (k0_pay15 (k0_pay5 x wi) (k0_pay7 h wh) (k0_pay8 br) (k0_pay9 x h wi wh) (k0_pay10 gr))
        (k0_pay16 (k0_pay5 x wi) (k0_pay7 h wh) (k0_pay8 br) (k0_pay9 x h wi wh) (k0_pay10 gr))
      = bodyOf x h wi wh gr br gz bz gn bn := by
  unfold bodyOf gZ pN gR lnCore affine k0_pay1 k0_pay11 k0_pay12 k0_pay13 k0_pay14 k0_pay15 k0_pay16 k0_pay4 k0_pay5 k0_pay6 k0_pay7 k0_pay8 k0_pay9 k0_pay10
  rfl

end Cert.KernelIdeal.KerPay

end
-- ==== Proof.KerCell.lean ====
/-
  The stored block at `(p, q)` is Cert.Gru's cell of row `p` at entry `q`, with the one-pass variance: the two projections
  of the row are sums over the 512 inputs, the three normalised rows are the reset, update and candidate inputs
  `preR`, `preZ`, `preN`, and the γ / β vectors are read off their 1 × 512 blocks.
-/
import proofs.«115454_j39745627357260_2_alg».proof.Proof.KerPay

noncomputable section

open scoped BigOperators

namespace Cert.KernelIdeal.KerPay

open Cert.KernelIdeal Cert.KernelIdeal.Gen Idealize.ShloMosaic Idealize.ShloMosaic.TcCoe Idealize.ShloMosaic.ValueIdx

/-- Row `p` of a block of rows projected by a weight matrix stored [input, column]. -/
abbrev prj (x : FVec Ideal S512x512 .f32) (w : FVec Ideal S512x1536 .bf16) (p : Fin 512) : Fin 1536 → EReal :=
  fun c => ∑ k : Fin 512, x (ix2 p k) * w (ix2 k c)

/-- A 1 × 512 block as a row. -/
abbrev rowOf (g : FVec Ideal S1x512 .f32) : Cert.Gru.Row := fun k => g (ix2 (0 : Fin 1) k)

/-- Normalisation then scale and shift, at `(p, q)`, of a block whose row `p` is `row`. -/
theorem lnAffine_apply (V : FVec Ideal S512x512 .f32) (g b : FVec Ideal S1x512 .f32) (p q : Fin 512) (row : Cert.Gru.Row)
    (hrow : ∀ k, V (ix2 p k) = row k) :
    affine (lnCore V) g b (ix2 p q) = Cert.Gru.ln (Cert.Gru.var1 row) row (rowOf g) (rowOf b) q := by
  have e : (fun k => V (ix2 p k)) = row := funext hrow
  rw [affine_apply, lnCore_apply, e, hrow q]
  rfl

variable (x h : FVec Ideal S512x512 .f32) (wi wh : FVec Ideal S512x1536 .bf16) (gr br gz bz gn bn : FVec Ideal S1x512 .f32)

theorem rowR_eq (p k : Fin 512) :
    addf (blkR (k0_pay2 x wi)) (blkR (k0_pay3 h wh)) (ix2 p k) = Cert.Gru.preR (prj x wi p) (prj h wh p) k := by
  show blkR (k0_pay2 x wi) (ix2 p k) + blkR (k0_pay3 h wh) (ix2 p k) = _
  rw [blkR_apply, blkR_apply, pay2_apply, pay3_apply]
  rfl

theorem rowZ_eq (p k : Fin 512) :
    addf (blkZ (k0_pay2 x wi)) (blkZ (k0_pay3 h wh)) (ix2 p k) = Cert.Gru.preZ (prj x wi p) (prj h wh p) k := by
  show blkZ (k0_pay2 x wi) (ix2 p k) + blkZ (k0_pay3 h wh) (ix2 p k) = _
  rw [blkZ_apply, blkZ_apply, pay2_apply, pay3_apply]
  rfl

/-- The reset gate over a block at `(p, q)`. -/
theorem gR_apply (p q : Fin 512) :
    gR x h wi wh gr br (ix2 p q) = Cert.Gru.gateR Cert.Gru.var1 (prj x wi p) (prj h wh p) (rowOf gr) (rowOf br) q := by
  unfold gR
  show Ideal.logistic (affine (lnCore (addf (blkR (k0_pay2 x wi)) (blkR (k0_pay3 h wh)))) gr br (ix2 p q)) = _
  rw [lnAffine_apply _ gr br p q _ (rowR_eq x h wi wh p)]
  rfl

/-- The update gate over a block at `(p, q)`. -/
theorem gZ_apply (p q : Fin 512) :
    gZ x h wi wh gz bz (ix2 p q) = Cert.Gru.gateZ Cert.Gru.var1 (prj x wi p) (prj h wh p) (rowOf gz) (rowOf bz) q := by
  unfold gZ
  show Ideal.logistic (affine (lnCore (addf (blkZ (k0_pay2 x wi)) (blkZ (k0_pay3 h wh)))) gz bz (ix2 p q)) = _
  rw [lnAffine_apply _ gz bz p q _ (rowZ_eq x h wi wh p)]
  rfl

theorem rowN_eq (p k : Fin 512) :
    pN x h wi wh gr br (ix2 p k)
      = Cert.Gru.preN (prj x wi p) (prj h wh p) (Cert.Gru.gateR Cert.Gru.var1 (prj x wi p) (prj h wh p) (rowOf gr) (rowOf br)) k := by
  unfold pN
  show blkN (k0_pay2 x wi) (ix2 p k) + gR x h wi wh gr br (ix2 p k) * blkN (k0_pay3 h wh) (ix2 p k) = _
  rw [blkN_apply, blkN_apply, pay2_apply, pay3_apply, gR_apply]
  rfl

/-- The stored block at `(p, q)`: the cell of row `p`. -/
theorem bodyOf_apply (p q : Fin 512) :
    bodyOf x h wi wh gr br gz bz gn bn (ix2 p q)
      = Cert.Gru.cell Cert.Gru.var1 (prj x wi p) (prj h wh p) (fun k => h (ix2 p k))
          (rowOf gr) (rowOf br) (rowOf gz) (rowOf bz) (rowOf gn) (rowOf bn) q := by
  unfold bodyOf
  show (Cert.Gru.one - gZ x h wi wh gz bz (ix2 p q))
        * Ideal.tanh (affine (lnCore (pN x h wi wh gr br)) gn bn (ix2 p q))
      + gZ x h wi wh gz bz (ix2 p q) * h (ix2 p q) = _
  rw [gZ_apply, lnAffine_apply _ gn bn p q _ (rowN_eq x h wi wh gr br p)]
  rfl

end Cert.KernelIdeal.KerPay

end
-- ==== Proof.KerValue.lean ====
/-
  The idealized kernel's result ARRAY: after the run it is Cert.Gru.G with the one-pass variance, of the ten argument
  arrays as launched.

  The grid has 32 points; point `t` stages rows 512·t … 512·t + 511 of `x` and of `h`, the two weight matrices whole
  (each transposed, and narrowed in format — the identity here — by the host before the region), and the six γ / β vectors
  whole (each cast to a 1 × 512 block by the host), and writes back rows 512·t … 512·t + 511 of the result. What it writes
  is the body's stored block, which at `(p, q)` is the cell of row `p` of the staged blocks; read through the blocks that
  is Cert.Gru.Gat at row 512·t + p. The 32 blocks tile the 16384 rows, so the array is G everywhere.
-/
import proofs.«115454_j39745627357260_2_alg».proof.Proof.KernelValueBlocks
import proofs.«115454_j39745627357260_2_alg».proof.Proof.KerCell
import Idealize.ShloMosaic.Lib.StableHlo.Run

noncomputable section

open scoped BigOperators

namespace Cert.KernelIdeal.KerValue

open Cert.KernelIdeal Cert.KernelIdeal.Gen Cert.KernelIdeal.KerPay Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as a function of the launched arguments. -/
abbrev GK (c : Dev nD) : S16384x512.Idx → EReal :=
  Cert.Gru.G Cert.Gru.var1 (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The printed index maps over the grid: the row blocks of `x`, `h` and the result move with the point, everything else
    stays at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Row `p` of point `t`'s block is row 512·t + p of the array. -/
abbrev rowAt (t : Fin cfg0.N) (p : Fin 512) : Fin 16384 :=
  ⟨512 * t.val + p.val, by have ht : t.val < cfg0.N := t.isLt; have hN : cfg0.N = 32 := N_0; have := p.isLt; omega⟩

/-! ## What the region finds in the arrays the host wrote -/

theorem V_v1 (c : Dev nD) : @Eq (S512x1536.Idx → EReal) (V m c main_v1)
    (truncf (F := Ideal) .bf16 (transpose S512x1536 [1, 0] (m ((c : Thread nD τ).loc main_arg2) : S1536x512.Idx → EReal) transposes_S1536x512_S512x1536_1_0) bitsLt_bf16_f32) := by
  dsimp only [V, hostOps0]; after_results

theorem V_v3 (c : Dev nD) : @Eq (S512x1536.Idx → EReal) (V m c main_v3)
    (truncf (F := Ideal) .bf16 (transpose S512x1536 [1, 0] (m ((c : Thread nD τ).loc main_arg3) : S1536x512.Idx → EReal) transposes_S1536x512_S512x1536_1_0) bitsLt_bf16_f32) := by
  dsimp only [V, hostOps0]; after_results

theorem V_v4 (c : Dev nD) : @Eq (S1x512.Idx → EReal) (V m c main_v4)
    (shapeCast S1x512 (m ((c : Thread nD τ).loc main_arg4) : S512.Idx → EReal) shapeCasts_S512_S1x512) := by
  dsimp only [V, hostOps0]; after_results; rfl
theorem V_v5 (c : Dev nD) : @Eq (S1x512.Idx → EReal) (V m c main_v5)
    (shapeCast S1x512 (m ((c : Thread nD τ).loc main_arg5) : S512.Idx → EReal) shapeCasts_S512_S1x512) := by
  dsimp only [V, hostOps0]; after_results; rfl
theorem V_v6 (c : Dev nD) : @Eq (S1x512.Idx → EReal) (V m c main_v6)
    (shapeCast S1x512 (m ((c : Thread nD τ).loc main_arg6) : S512.Idx → EReal) shapeCasts_S512_S1x512) := by
  dsimp only [V, hostOps0]; after_results; rfl
theorem V_v7 (c : Dev nD) : @Eq (S1x512.Idx → EReal) (V m c main_v7)
    (shapeCast S1x512 (m ((c : Thread nD τ).loc main_arg7) : S512.Idx → EReal) shapeCasts_S512_S1x512) := by
  dsimp only [V, hostOps0]; after_results; rfl
theorem V_v8 (c : Dev nD) : @Eq (S1x512.Idx → EReal) (V m c main_v8)
    (shapeCast S1x512 (m ((c : Thread nD τ).loc main_arg8) : S512.Idx → EReal) shapeCasts_S512_S1x512) := by
  dsimp only [V, hostOps0]; after_results; rfl
theorem V_v9 (c : Dev nD) : @Eq (S1x512.Idx → EReal) (V m c main_v9)
    (shapeCast S1x512 (m ((c : Thread nD τ).loc main_arg9) : S512.Idx → EReal) shapeCasts_S512_S1x512) := by
  dsimp only [V, hostOps0]; after_results; rfl

/-! ## The staged blocks read at an index -/

/-- Point `t`'s block of `x` at `(p, k)` is `x` at row 512·t + p. -/
theorem rd_0 (c : Dev nD) (t : Fin cfg0.N) (p k : Fin 512) :
    iblk m c 0 t (ix2 p k) = m ((c : Thread nD τ).loc main_arg0) (ix2 (rowAt t p) k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_arg0 (((cfg0.win 0).blk t).view.emb (ix2 p k)) = _
  have h0 : ((cfg0.win 0).blk t).view.emb (ix2 p k) = ix2 (rowAt t p) k := by
    funext a; apply Fin.ext
    match a with
    | ⟨0, _⟩ => show win0_0.index t (0 : Fin 2) * 512 + 1 * p.val = 512 * t.val + p.val; omega
    | ⟨1, _⟩ => show win0_0.index t (1 : Fin 2) * 512 + 1 * k.val = k.val; omega
  rw [h0, V_main_arg0]

/-- Point `t`'s block of `h` at `(p, k)` is `h` at row 512·t + p. -/
theorem rd_1 (c : Dev nD) (t : Fin cfg0.N) (p k : Fin 512) :
    iblk m c 1 t (ix2 p k) = m ((c : Thread nD τ).loc main_arg1) (ix2 (rowAt t p) k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_arg1 (((cfg0.win 1).blk t).view.emb (ix2 p k)) = _
  have h0 : ((cfg0.win 1).blk t).view.emb (ix2 p k) = ix2 (rowAt t p) k := by
    funext a; apply Fin.ext
    match a with
    | ⟨0, _⟩ => show win0_1.index t (0 : Fin 2) * 512 + 1 * p.val = 512 * t.val + p.val; omega
    | ⟨1, _⟩ => show win0_1.index t (1 : Fin 2) * 512 + 1 * k.val = k.val; omega
  rw [h0, V_main_arg1]

/-- The staged input weights at `(k, c')`: the weight matrix at column `c'`, input `k`. -/
theorem rd_2 (c : Dev nD) (t : Fin cfg0.N) (k : Fin 512) (c' : Fin 1536) :
    iblk m c 2 t (ix2 k c') = m ((c : Thread nD τ).loc main_arg2) (ix2 c' k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v1 (((cfg0.win 2).blk t).view.emb (ix2 k c')) = _
  have h0 : ((cfg0.win 2).blk t).view.emb (ix2 k c') = ix2 k c' := by
    funext a; apply Fin.ext
    match a with
    | ⟨0, _⟩ => show win0_2.index t (0 : Fin 2) * 512 + 1 * k.val = k.val; omega
    | ⟨1, _⟩ => show win0_2.index t (1 : Fin 2) * 1536 + 1 * c'.val = c'.val; omega
  rw [h0, V_v1]
  exact transpose_ix2_apply _ transposes_S1536x512_S512x1536_1_0 k c'

/-- The staged hidden weights at `(k, c')`. -/
theorem rd_3 (c : Dev nD) (t : Fin cfg0.N) (k : Fin 512) (c' : Fin 1536) :
    iblk m c 3 t (ix2 k c') = m ((c : Thread nD τ).loc main_arg3) (ix2 c' k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v3 (((cfg0.win 3).blk t).view.emb (ix2 k c')) = _
  have h0 : ((cfg0.win 3).blk t).view.emb (ix2 k c') = ix2 k c' := by
    funext a; apply Fin.ext
    match a with
    | ⟨0, _⟩ => show win0_3.index t (0 : Fin 2) * 512 + 1 * k.val = k.val; omega
    | ⟨1, _⟩ => show win0_3.index t (1 : Fin 2) * 1536 + 1 * c'.val = c'.val; omega
  rw [h0, V_v3]
  exact transpose_ix2_apply _ transposes_S1536x512_S512x1536_1_0 k c'

theorem rd_4 (c : Dev nD) (t : Fin cfg0.N) (k : Fin 512) :
    iblk m c 4 t (ix2 (0 : Fin 1) k) = m ((c : Thread nD τ).loc main_arg4) (ix1 k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v4 (((cfg0.win 4).blk t).view.emb (ix2 (0 : Fin 1) k)) = _
  have h0 : ((cfg0.win 4).blk t).view.emb (ix2 (0 : Fin 1) k) = ix2 (0 : Fin 1) k := by
    funext a; apply Fin.ext
    match a with
    | ⟨0, _⟩ => show win0_4.index t (0 : Fin 2) * 1 + 1 * 0 = 0; omega
    | ⟨1, _⟩ => show win0_4.index t (1 : Fin 2) * 512 + 1 * k.val = k.val; omega
  rw [h0, V_v4]
  exact shapeCast_a_1a_apply _ shapeCasts_S512_S1x512 (0 : Fin 1) k

theorem rd_5 (c : Dev nD) (t : Fin cfg0.N) (k : Fin 512) :
    iblk m c 5 t (ix2 (0 : Fin 1) k) = m ((c : Thread nD τ).loc main_arg5) (ix1 k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v5 (((cfg0.win 5).blk t).view.emb (ix2 (0 : Fin 1) k)) = _
  have h0 : ((cfg0.win 5).blk t).view.emb (ix2 (0 : Fin 1) k) = ix2 (0 : Fin 1) k := by
    funext a; apply Fin.ext
    match a with
    | ⟨0, _⟩ => show win0_5.index t (0 : Fin 2) * 1 + 1 * 0 = 0; omega
    | ⟨1, _⟩ => show win0_5.index t (1 : Fin 2) * 512 + 1 * k.val = k.val; omega
  rw [h0, V_v5]
  exact shapeCast_a_1a_apply _ shapeCasts_S512_S1x512 (0 : Fin 1) k

theorem rd_6 (c : Dev nD) (t : Fin cfg0.N) (k : Fin 512) :
    iblk m c 6 t (ix2 (0 : Fin 1) k) = m ((c : Thread nD τ).loc main_arg6) (ix1 k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v6 (((cfg0.win 6).blk t).view.emb (ix2 (0 : Fin 1) k)) = _
  have h0 : ((cfg0.win 6).blk t).view.emb (ix2 (0 : Fin 1) k) = ix2 (0 : Fin 1) k := by
    funext a; apply Fin.ext
    match a with
    | ⟨0, _⟩ => show win0_6.index t (0 : Fin 2) * 1 + 1 * 0 = 0; omega
    | ⟨1, _⟩ => show win0_6.index t (1 : Fin 2) * 512 + 1 * k.val = k.val; omega
  rw [h0, V_v6]
  exact shapeCast_a_1a_apply _ shapeCasts_S512_S1x512 (0 : Fin 1) k

theorem rd_7 (c : Dev nD) (t : Fin cfg0.N) (k : Fin 512) :
    iblk m c 7 t (ix2 (0 : Fin 1) k) = m ((c : Thread nD τ).loc main_arg7) (ix1 k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v7 (((cfg0.win 7).blk t).view.emb (ix2 (0 : Fin 1) k)) = _
  have h0 : ((cfg0.win 7).blk t).view.emb (ix2 (0 : Fin 1) k) = ix2 (0 : Fin 1) k := by
    funext a; apply Fin.ext
    match a with
    | ⟨0, _⟩ => show win0_7.index t (0 : Fin 2) * 1 + 1 * 0 = 0; omega
    | ⟨1, _⟩ => show win0_7.index t (1 : Fin 2) * 512 + 1 * k.val = k.val; omega
  rw [h0, V_v7]
  exact shapeCast_a_1a_apply _ shapeCasts_S512_S1x512 (0 : Fin 1) k

theorem rd_8 (c : Dev nD) (t : Fin cfg0.N) (k : Fin 512) :
    iblk m c 8 t (ix2 (0 : Fin 1) k) = m ((c : Thread nD τ).loc main_arg8) (ix1 k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v8 (((cfg0.win 8).blk t).view.emb (ix2 (0 : Fin 1) k)) = _
  have h0 : ((cfg0.win 8).blk t).view.emb (ix2 (0 : Fin 1) k) = ix2 (0 : Fin 1) k := by
    funext a; apply Fin.ext
    match a with
    | ⟨0, _⟩ => show win0_8.index t (0 : Fin 2) * 1 + 1 * 0 = 0; omega
    | ⟨1, _⟩ => show win0_8.index t (1 : Fin 2) * 512 + 1 * k.val = k.val; omega
  rw [h0, V_v8]
  exact shapeCast_a_1a_apply _ shapeCasts_S512_S1x512 (0 : Fin 1) k

theorem rd_9 (c : Dev nD) (t : Fin cfg0.N) (k : Fin 512) :
    iblk m c 9 t (ix2 (0 : Fin 1) k) = m ((c : Thread nD τ).loc main_arg9) (ix1 k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  show V m c main_v9 (((cfg0.win 9).blk t).view.emb (ix2 (0 : Fin 1) k)) = _
  have h0 : ((cfg0.win 9).blk t).view.emb (ix2 (0 : Fin 1) k) = ix2 (0 : Fin 1) k := by
    funext a; apply Fin.ext
    match a with
    | ⟨0, _⟩ => show win0_9.index t (0 : Fin 2) * 1 + 1 * 0 = 0; omega
    | ⟨1, _⟩ => show win0_9.index t (1 : Fin 2) * 512 + 1 * k.val = k.val; omega
  rw [h0, V_v9]
  exact shapeCast_a_1a_apply _ shapeCasts_S512_S1x512 (0 : Fin 1) k

/-! ## What a point writes back, the cover, the array, the run -/

/-- An element of point `t`'s result block sits in the array at row 512·t + p. -/
theorem emb_10 (t : Fin cfg0.N) (p q : Fin 512) : ((cfg0.win 10).blk t).view.emb (ix2 p q) = ix2 (rowAt t p) q := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  funext a; apply Fin.ext
  match a with
  | ⟨0, _⟩ => show win0_10.index t (0 : Fin 2) * 512 + 1 * p.val = 512 * t.val + p.val; omega
  | ⟨1, _⟩ => show win0_10.index t (1 : Fin 2) * 512 + 1 * q.val = q.val; omega

/-- WHAT POINT `t` WRITES BACK is block `t` of the result function of the launched arguments. -/
theorem flushed_eq (c : Dev nD) (t : Fin cfg0.N) :
    (dats m 0 c).flushed 10 t = ((cfg0.win 10).blk t).view.read (Elt Ideal) (GK m c) := by
  rw [Cert.KernelIdeal.ValueP.flushed10]
  unfold out0_10
  rw [View.canon_unit_zero hz]
  simp only [View.ld_unit_zero (S := S512x512) hz, View.ld_unit_zero (S := S512x1536) hz, View.ld_unit_zero (S := S1x512) hz]
  funext y
  obtain ⟨p, q, rfl⟩ : ∃ (p q : Fin 512), y = ix2 p q := ⟨y 0, y 1, eq_ix2 y⟩
  refine (congrFun (pay_eq_bodyOf (iblk m c 0 t) (iblk m c 1 t) (iblk m c 2 t) (iblk m c 3 t) (iblk m c 4 t) (iblk m c 5 t)
    (iblk m c 6 t) (iblk m c 7 t) (iblk m c 8 t) (iblk m c 9 t)) (ix2 p q)).trans ?_
  refine (bodyOf_apply (iblk m c 0 t) (iblk m c 1 t) (iblk m c 2 t) (iblk m c 3 t) (iblk m c 4 t) (iblk m c 5 t)
    (iblk m c 6 t) (iblk m c 7 t) (iblk m c 8 t) (iblk m c 9 t) p q).trans ?_
  show _ = GK m c (((cfg0.win 10).blk t).view.emb (ix2 p q))
  rw [emb_10]
  show _ = Cert.Gru.Gat Cert.Gru.var1 _ _ _ _ _ _ _ _ _ _ (rowAt t p) q
  unfold Cert.Gru.Gat
  have ex : prj (iblk m c 0 t) (iblk m c 2 t) p
      = Cert.Gru.proj (fun k => m ((c : Thread nD τ).loc main_arg0) (ix2 (rowAt t p) k)) (fun c' k => m ((c : Thread nD τ).loc main_arg2) (ix2 c' k)) :=
    funext fun c' => Finset.sum_congr rfl fun k _ => by rw [rd_0, rd_2]
  have eh : prj (iblk m c 1 t) (iblk m c 3 t) p
      = Cert.Gru.proj (fun k => m ((c : Thread nD τ).loc main_arg1) (ix2 (rowAt t p) k)) (fun c' k => m ((c : Thread nD τ).loc main_arg3) (ix2 c' k)) :=
    funext fun c' => Finset.sum_congr rfl fun k _ => by rw [rd_1, rd_3]
  have er : (fun k => iblk m c 1 t (ix2 p k)) = fun k => m ((c : Thread nD τ).loc main_arg1) (ix2 (rowAt t p) k) :=
    funext fun k => rd_1 m c t p k
  have e4 : rowOf (iblk m c 4 t) = fun k => m ((c : Thread nD τ).loc main_arg4) (ix1 k) := funext fun k => rd_4 m c t k
  have e5 : rowOf (iblk m c 5 t) = fun k => m ((c : Thread nD τ).loc main_arg5) (ix1 k) := funext fun k => rd_5 m c t k
  have e6 : rowOf (iblk m c 6 t) = fun k => m ((c : Thread nD τ).loc main_arg6) (ix1 k) := funext fun k => rd_6 m c t k
  have e7 : rowOf (iblk m c 7 t) = fun k => m ((c : Thread nD τ).loc main_arg7) (ix1 k) := funext fun k => rd_7 m c t k
  have e8 : rowOf (iblk m c 8 t) = fun k => m ((c : Thread nD τ).loc main_arg8) (ix1 k) := funext fun k => rd_8 m c t k
  have e9 : rowOf (iblk m c 9 t) = fun k => m ((c : Thread nD τ).loc main_arg9) (ix1 k) := funext fun k => rd_9 m c t k
  rw [ex, eh, er, e4, e5, e6, e7, e8, e9]

/-- An index of the array is in point `t`'s block iff each coordinate is in the block's range on its axis. -/
theorem mem_blk (t : Fin cfg0.N) (i : S16384x512.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v10).slice (win0_10.rect t)).set ↔ _
  rw [View.set_slice_whole, Rect.mem_set_unit]
  exact Iff.rfl

/-- Every index of the result array is in some point's block: row `r` is in the block of point `r / 512`. -/
theorem cover (i : S16384x512.Idx) : ∃ t : Fin cfg0.N, (cfg0.win 10).flush t = true ∧ i ∈ ((cfg0.win 10).blk t).view.set := by
  have hi0 : (i 0).val < 16384 := (i 0).isLt
  have hi1 : (i 1).val < 512 := (i 1).isLt
  have hN : cfg0.N = 32 := N_0
  have hlt : (i 0).val / 512 < cfg0.N := by omega
  obtain ⟨t, ht⟩ : ∃ t : Fin cfg0.N, t.val = (i 0).val / 512 := ⟨⟨(i 0).val / 512, hlt⟩, rfl⟩
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts t
  refine ⟨t, flush0_10 t, ?_⟩
  rw [mem_blk]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 512 ≤ (i 1).val ∧ (i 1).val < win0_10.index t (1 : Fin 2) * 512 + 512; omega

/-- THE ARRAY after the run. -/
theorem final (c : Dev nD) : (dats m 0 c).arrAt 10 cfg0.N = GK m c :=
  (dats m 0 c).arrAt_eq_of_cover 10 (GK m c) (fun t _ => flushed_eq m c t) cover

/-- The idealized kernel's run: the result array is the cell with the one-pass variance of the launched arguments,
    row by row, and the arguments are unchanged. -/
theorem run : θ_run (defs (F := Ideal)) (onTc (τ := τ) (main (F := Ideal))) ⟨m, fun _ => 0, ρ⟩ fun r => ∀ c : Dev nD,
      r.2.mem ((c : Thread nD τ).loc main_v10) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.ValueP.run_blocks m ρ)

end Cert.KernelIdeal.KerValue

end
-- ==== Proof.RefOps.lean ====
/-
  The reference program's operations as ONE literal list, in program order, each call of the outlined variance
  routine replaced by the routine's own operations over that call's buffers (and, inside it, the selection
  routine's three over the nested record): 169 operations.
-/
import proofs.«115454_j39745627357260_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The program's 169 operations, in order. -/
abbrev ops : List (HloOp τ sig (Elt F)) :=
  [ unary main_arg2 main_v0 ((transpose S512x1536 [1, 0] · transposes_S1536x512_S512x1536_1_0) : (⟨S1536x512, .f32⟩ : BufTy).Contents (Elt F) → (⟨S512x1536, .f32⟩ : BufTy).Contents (Elt F)),
    binary main_arg0 main_v0 main_v1 ((fun l r => Host.dotGeneral dot_S16384x512_S512x1536_S16384x1536_1_0_0_1_n_n none l r) : (⟨S16384x512, .f32⟩ : BufTy).Contents (Elt F) → (⟨S512x1536, .f32⟩ : BufTy).Contents (Elt F) → (⟨S16384x1536, .f32⟩ : BufTy).Contents (Elt F)),
    unary main_arg3 main_v2 ((transpose S512x1536 [1, 0] · transposes_S1536x512_S512x1536_1_0) : (⟨S1536x512, .f32⟩ : BufTy).Contents (Elt F) → (⟨S512x1536, .f32⟩ : BufTy).Contents (Elt F)),
    binary main_arg1 main_v2 main_v3 ((fun l r => Host.dotGeneral dot_S16384x512_S512x1536_S16384x1536_1_0_0_1_n_n none l r) : (⟨S16384x512, .f32⟩ : BufTy).Contents (Elt F) → (⟨S512x1536, .f32⟩ : BufTy).Contents (Elt F) → (⟨S16384x1536, .f32⟩ : BufTy).Contents (Elt F)),
    unary main_v1 main_v4 ((extractStridedSlice S16384x512 ![0, 0] · slices_S16384x1536_S16384x512_0_0) : (⟨S16384x1536, .f32⟩ : BufTy).Contents (Elt F) → (⟨S16384x512, .f32⟩ : BufTy).Contents (Elt F)),
    unary main_v1 main_v5 ((extractStridedSlice S16384x512 ![0, 512] · slices_S16384x1536_S16384x512_0_512) : (⟨S16384x1536, .f32⟩ : BufTy).Contents (Elt F) → (⟨S16384x512, .f32⟩ : BufTy).Contents (Elt F)),
    unary main_v1 main_v6 ((extractStridedSlice S16384x512 ![0, 1024] · slices_S16384x1536_S16384x512_0_1024) : (⟨S16384x1536, .f32⟩ : BufTy).Contents (Elt F) → (⟨S16384x512, .f32⟩ : BufTy).Contents (Elt F)),
    unary main_v3 main_v7 ((extractStridedSlice S16384x512 ![0, 0] · slices_S16384x1536_S16384x512_0_0) : (⟨S16384x1536, .f32⟩ : BufTy).Contents (Elt F) → (⟨S16384x512, .f32⟩ : BufTy).Contents (Elt F)),
    unary main_v3 main_v8 ((extractStridedSlice S16384x512 ![0, 512] · slices_S16384x1536_S16384x512_0_512) : (⟨S16384x1536, .f32⟩ : BufTy).Contents (Elt F) → (⟨S16384x512, .f32⟩ : BufTy).Contents (Elt F)),
    unary main_v3 main_v9 ((extractStridedSlice S16384x512 ![0, 1024] · slices_S16384x1536_S16384x512_0_1024) : (⟨S16384x1536, .f32⟩ : BufTy).Contents (Elt F) → (⟨S16384x512, .f32⟩ : BufTy).Contents (Elt F)),
    binary main_v4 main_v7 main_v10 (addf : (⟨S16384x512, .f32⟩ : BufTy).Contents (Elt F) → (⟨S16384x512, .f32⟩ : BufTy).Contents (Elt F) → (⟨S16384x512, .f32⟩ : BufTy).Contents (Elt F)),
    nullary main_cst (constant S_ .f32 0x00000000#32),
    binary main_v10 main_cst main_v11 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v11 main_v12 (broadcastInDim S16384x1 ![0] bcast_S16384_S16384x1_0 : (⟨S16384, .f32⟩ : BufTy).Contents (Elt F) → (⟨S16384x1, .f32⟩ : BufTy).Contents (Elt F)),
    nullary main_cst_0 (constant S_ .f32 0x44000000#32),
    unary main_cst_0 main_v13 (broadcastInDim S16384x1 ![] bcast_S_S16384x1 : (⟨S_, .f32⟩ : BufTy).Contents (Elt F) → (⟨S16384x1, .f32⟩ : BufTy).Contents (Elt F)),
    binary main_v12 main_v13 main_v14 (Host.divf : (⟨S16384x1, .f32⟩ : BufTy).Contents (Elt F) → (⟨S16384x1, .f32⟩ : BufTy).Contents (Elt F) → (⟨S16384x1, .f32⟩ : BufTy).Contents (Elt F)),
    nullary main_c (constantI S_ 32 0#32),
    TRef.nullary main_call0.cst (constant S_ .f32 0x00000000#32),
    TRef.binary (TRef.of main_v10 : TRef sig ⟨S16384x512, .f32⟩) main_call0.cst main_call0.v0 (fun x v => Host.reduceAdd x v reducesTo_S16384x512_S16384_d1 h_S_),
    TRef.unary main_call0.v0 main_call0.v1 (broadcastInDim S16384x1 ![0] bcast_S16384_S16384x1_0),
    TRef.nullary main_call0.cst_0 (constant S_ .f32 0x44000000#32),
    TRef.unary main_call0.cst_0 main_call0.v2 (broadcastInDim S16384x1 ![] bcast_S_S16384x1),
    TRef.binary main_call0.v1 main_call0.v2 main_call0.v3 Host.divf,
    TRef.unary main_call0.v3 main_call0.v4 (broadcastInDim S16384x512 ![0, 1] bcast_S16384x1_S16384x512_0_1),
    TRef.binary (TRef.of main_v10 : TRef sig ⟨S16384x512, .f32⟩) main_call0.v4 main_call0.v5 subf,
    TRef.binary main_call0.v5 main_call0.v5 main_call0.v6 mulf,
    TRef.unary (TRef.of main_c : TRef sig ⟨S_, .i32⟩) main_call0.v7 (sitofp .f32),
    TRef.nullary main_call0.cst_1 (constant S_ .f32 0x44000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x512_S16384_d1 h_S_),
    TRef.unary main_call0.v9 main_call0.v10 (broadcastInDim S16384x1 ![0] bcast_S16384_S16384x1_0),
    TRef.unary main_call0.v8 main_call0.v11 (broadcastInDim S16384x1 ![] bcast_S_S16384x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S16384x1 ![] bcast_S_S16384x1),
    TRef.ternary main_call0.v13 main_call0.v12 main_call0.call0.v1 main_call0.call0.v2 (fun p a b => select (broadcastInDim S16384x1 ![] bcast_S_S16384x1 p) a b),
    unary main_v14 main_v16 (broadcastInDim S16384x512 ![0, 1] bcast_S16384x1_S16384x512_0_1 : (⟨S16384x1, .f32⟩ : BufTy).Contents (Elt F) → (⟨S16384x512, .f32⟩ : BufTy).Contents (Elt F)),
    binary main_v10 main_v16 main_v17 (subf : (⟨S16384x512, .f32⟩ : BufTy).Contents (Elt F) → (⟨S16384x512, .f32⟩ : BufTy).Contents (Elt F) → (⟨S16384x512, .f32⟩ : BufTy).Contents (Elt F)),
    nullary main_cst_1 (constant S_ .f32 0x3727C5AC#32),
    unary main_cst_1 main_v18 (broadcastInDim S16384x1 ![] bcast_S_S16384x1 : (⟨S_, .f32⟩ : BufTy).Contents (Elt F) → (⟨S16384x1, .f32⟩ : BufTy).Contents (Elt F)),
    binary main_v15 main_v18 main_v19 (addf : (⟨S16384x1, .f32⟩ : BufTy).Contents (Elt F) → (⟨S16384x1, .f32⟩ : BufTy).Contents (Elt F) → (⟨S16384x1, .f32⟩ : BufTy).Contents (Elt F)),
    unary main_v19 main_v20 (Host.rsqrt : (⟨S16384x1, .f32⟩ : BufTy).Contents (Elt F) → (⟨S16384x1, .f32⟩ : BufTy).Contents (Elt F)),
    unary main_v20 main_v21 (broadcastInDim S16384x512 ![0, 1] bcast_S16384x1_S16384x512_0_1 : (⟨S16384x1, .f32⟩ : BufTy).Contents (Elt F) → (⟨S16384x512, .f32⟩ : BufTy).Contents (Elt F)),
    binary main_v17 main_v21 main_v22 (mulf : (⟨S16384x512, .f32⟩ : BufTy).Contents (Elt F) → (⟨S16384x512, .f32⟩ : BufTy).Contents (Elt F) → (⟨S16384x512, .f32⟩ : BufTy).Contents (Elt F)),
    unary main_arg4 main_v23 (broadcastInDim S1x512 ![1] bcast_S512_S1x512_1 : (⟨S512, .f32⟩ : BufTy).Contents (Elt F) → (⟨S1x512, .f32⟩ : BufTy).Contents (Elt F)),
    unary main_v23 main_v24 (broadcastInDim S16384x512 ![0, 1] bcast_S1x512_S16384x512_0_1 : (⟨S1x512, .f32⟩ : BufTy).Contents (Elt F) → (⟨S16384x512, .f32⟩ : BufTy).Contents (Elt F)),
    binary main_v22 main_v24 main_v25 (mulf : (⟨S16384x512, .f32⟩ : BufTy).Contents (Elt F) → (⟨S16384x512, .f32⟩ : BufTy).Contents (Elt F) → (⟨S16384x512, .f32⟩ : BufTy).Contents (Elt F)),
    unary main_arg5 main_v26 (broadcastInDim S1x512 ![1] bcast_S512_S1x512_1 : (⟨S512, .f32⟩ : BufTy).Contents (Elt F) → (⟨S1x512, .f32⟩ : BufTy).Contents (Elt F)),
    unary main_v26 main_v27 (broadcastInDim S16384x512 ![0, 1] bcast_S1x512_S16384x512_0_1 : (⟨S1x512, .f32⟩ : BufTy).Contents (Elt F) → (⟨S16384x512, .f32⟩ : BufTy).Contents (Elt F)),
    binary main_v25 main_v27 main_v28 (addf : (⟨S16384x512, .f32⟩ : BufTy).Contents (Elt F) → (⟨S16384x512, .f32⟩ : BufTy).Contents (Elt F) → (⟨S16384x512, .f32⟩ : BufTy).Contents (Elt F)),
    unary main_v28 main_v29 (Host.negf : (⟨S16384x512, .f32⟩ : BufTy).Contents (Elt F) → (⟨S16384x512, .f32⟩ : BufTy).Contents (Elt F)),
    unary main_v29 main_v30 (Host.exp : (⟨S16384x512, .f32⟩ : BufTy).Contents (Elt F) → (⟨S16384x512, .f32⟩ : BufTy).Contents (Elt F)),
    nullary main_cst_2 (constant S_ .f32 0x3F800000#32),
    unary main_cst_2 main_v31 (broadcastInDim S16384x512 ![] bcast_S_S16384x512 : (⟨S_, .f32⟩ : BufTy).Contents (Elt F) → (⟨S16384x512, .f32⟩ : BufTy).Contents (Elt F)),
    binary main_v31 main_v30 main_v32 (addf : (⟨S16384x512, .f32⟩ : BufTy).Contents (Elt F) → (⟨S16384x512, .f32⟩ : BufTy).Contents (Elt F) → (⟨S16384x512, .f32⟩ : BufTy).Contents (Elt F)),
    nullary main_cst_3 (constant S_ .f32 0x3F800000#32),
    unary main_cst_3 main_v33 (broadcastInDim S16384x512 ![] bcast_S_S16384x512 : (⟨S_, .f32⟩ : BufTy).Contents (Elt F) → (⟨S16384x512, .f32⟩ : BufTy).Contents (Elt F)),
    binary main_v33 main_v32 main_v34 (Host.divf : (⟨S16384x512, .f32⟩ : BufTy).Contents (Elt F) → (⟨S16384x512, .f32⟩ : BufTy).Contents (Elt F) → (⟨S16384x512, .f32⟩ : BufTy).Contents (Elt F)),
    binary main_v5 main_v8 main_v35 (addf : (⟨S16384x512, .f32⟩ : BufTy).Contents (Elt F) → (⟨S16384x512, .f32⟩ : BufTy).Contents (Elt F) → (⟨S16384x512, .f32⟩ : BufTy).Contents (Elt F)),
    nullary main_cst_4 (constant S_ .f32 0x00000000#32),
    binary main_v35 main_cst_4 main_v36 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v36 main_v37 (broadcastInDim S16384x1 ![0] bcast_S16384_S16384x1_0 : (⟨S16384, .f32⟩ : BufTy).Contents (Elt F) → (⟨S16384x1, .f32⟩ : BufTy).Contents (Elt F)),
    nullary main_cst_5 (constant S_ .f32 0x44000000#32),
    unary main_cst_5 main_v38 (broadcastInDim S16384x1 ![] bcast_S_S16384x1 : (⟨S_, .f32⟩ : BufTy).Contents (Elt F) → (⟨S16384x1, .f32⟩ : BufTy).Contents (Elt F)),
    binary main_v37 main_v38 main_v39 (Host.divf : (⟨S16384x1, .f32⟩ : BufTy).Contents (Elt F) → (⟨S16384x1, .f32⟩ : BufTy).Contents (Elt F) → (⟨S16384x1, .f32⟩ : BufTy).Contents (Elt F)),
    nullary main_c_6 (constantI S_ 32 0#32),
    TRef.nullary main_call1.cst (constant S_ .f32 0x00000000#32),
    TRef.binary (TRef.of main_v35 : TRef sig ⟨S16384x512, .f32⟩) main_call1.cst main_call1.v0 (fun x v => Host.reduceAdd x v reducesTo_S16384x512_S16384_d1 h_S_),
    TRef.unary main_call1.v0 main_call1.v1 (broadcastInDim S16384x1 ![0] bcast_S16384_S16384x1_0),
    TRef.nullary main_call1.cst_0 (constant S_ .f32 0x44000000#32),
    TRef.unary main_call1.cst_0 main_call1.v2 (broadcastInDim S16384x1 ![] bcast_S_S16384x1),
    TRef.binary main_call1.v1 main_call1.v2 main_call1.v3 Host.divf,
    TRef.unary main_call1.v3 main_call1.v4 (broadcastInDim S16384x512 ![0, 1] bcast_S16384x1_S16384x512_0_1),
    TRef.binary (TRef.of main_v35 : TRef sig ⟨S16384x512, .f32⟩) main_call1.v4 main_call1.v5 subf,
    TRef.binary main_call1.v5 main_call1.v5 main_call1.v6 mulf,
    TRef.unary (TRef.of main_c_6 : TRef sig ⟨S_, .i32⟩) main_call1.v7 (sitofp .f32),
    TRef.nullary main_call1.cst_1 (constant S_ .f32 0x44000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S16384x512_S16384_d1 h_S_),
    TRef.unary main_call1.v9 main_call1.v10 (broadcastInDim S16384x1 ![0] bcast_S16384_S16384x1_0),
    TRef.unary main_call1.v8 main_call1.v11 (broadcastInDim S16384x1 ![] bcast_S_S16384x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S16384x1 ![] bcast_S_S16384x1),
    TRef.ternary main_call1.v13 main_call1.v12 main_call1.call0.v1 main_call1.call0.v2 (fun p a b => select (broadcastInDim S16384x1 ![] bcast_S_S16384x1 p) a b),
    unary main_v39 main_v41 (broadcastInDim S16384x512 ![0, 1] bcast_S16384x1_S16384x512_0_1 : (⟨S16384x1, .f32⟩ : BufTy).Contents (Elt F) → (⟨S16384x512, .f32⟩ : BufTy).Contents (Elt F)),
    binary main_v35 main_v41 main_v42 (subf : (⟨S16384x512, .f32⟩ : BufTy).Contents (Elt F) → (⟨S16384x512, .f32⟩ : BufTy).Contents (Elt F) → (⟨S16384x512, .f32⟩ : BufTy).Contents (Elt F)),
    nullary main_cst_7 (constant S_ .f32 0x3727C5AC#32),
    unary main_cst_7 main_v43 (broadcastInDim S16384x1 ![] bcast_S_S16384x1 : (⟨S_, .f32⟩ : BufTy).Contents (Elt F) → (⟨S16384x1, .f32⟩ : BufTy).Contents (Elt F)),
    binary main_v40 main_v43 main_v44 (addf : (⟨S16384x1, .f32⟩ : BufTy).Contents (Elt F) → (⟨S16384x1, .f32⟩ : BufTy).Contents (Elt F) → (⟨S16384x1, .f32⟩ : BufTy).Contents (Elt F)),
    unary main_v44 main_v45 (Host.rsqrt : (⟨S16384x1, .f32⟩ : BufTy).Contents (Elt F) → (⟨S16384x1, .f32⟩ : BufTy).Contents (Elt F)),
    unary main_v45 main_v46 (broadcastInDim S16384x512 ![0, 1] bcast_S16384x1_S16384x512_0_1 : (⟨S16384x1, .f32⟩ : BufTy).Contents (Elt F) → (⟨S16384x512, .f32⟩ : BufTy).Contents (Elt F)),
    binary main_v42 main_v46 main_v47 (mulf : (⟨S16384x512, .f32⟩ : BufTy).Contents (Elt F) → (⟨S16384x512, .f32⟩ : BufTy).Contents (Elt F) → (⟨S16384x512, .f32⟩ : BufTy).Contents (Elt F)),
    unary main_arg6 main_v48 (broadcastInDim S1x512 ![1] bcast_S512_S1x512_1 : (⟨S512, .f32⟩ : BufTy).Contents (Elt F) → (⟨S1x512, .f32⟩ : BufTy).Contents (Elt F)),
    unary main_v48 main_v49 (broadcastInDim S16384x512 ![0, 1] bcast_S1x512_S16384x512_0_1 : (⟨S1x512, .f32⟩ : BufTy).Contents (Elt F) → (⟨S16384x512, .f32⟩ : BufTy).Contents (Elt F)),
    binary main_v47 main_v49 main_v50 (mulf : (⟨S16384x512, .f32⟩ : BufTy).Contents (Elt F) → (⟨S16384x512, .f32⟩ : BufTy).Contents (Elt F) → (⟨S16384x512, .f32⟩ : BufTy).Contents (Elt F)),
    unary main_arg7 main_v51 (broadcastInDim S1x512 ![1] bcast_S512_S1x512_1 : (⟨S512, .f32⟩ : BufTy).Contents (Elt F) → (⟨S1x512, .f32⟩ : BufTy).Contents (Elt F)),
    unary main_v51 main_v52 (broadcastInDim S16384x512 ![0, 1] bcast_S1x512_S16384x512_0_1 : (⟨S1x512, .f32⟩ : BufTy).Contents (Elt F) → (⟨S16384x512, .f32⟩ : BufTy).Contents (Elt F)),
    binary main_v50 main_v52 main_v53 (addf : (⟨S16384x512, .f32⟩ : BufTy).Contents (Elt F) → (⟨S16384x512, .f32⟩ : BufTy).Contents (Elt F) → (⟨S16384x512, .f32⟩ : BufTy).Contents (Elt F)),
    unary main_v53 main_v54 (Host.negf : (⟨S16384x512, .f32⟩ : BufTy).Contents (Elt F) → (⟨S16384x512, .f32⟩ : BufTy).Contents (Elt F)),
    unary main_v54 main_v55 (Host.exp : (⟨S16384x512, .f32⟩ : BufTy).Contents (Elt F) → (⟨S16384x512, .f32⟩ : BufTy).Contents (Elt F)),
    nullary main_cst_8 (constant S_ .f32 0x3F800000#32),
    unary main_cst_8 main_v56 (broadcastInDim S16384x512 ![] bcast_S_S16384x512 : (⟨S_, .f32⟩ : BufTy).Contents (Elt F) → (⟨S16384x512, .f32⟩ : BufTy).Contents (Elt F)),
    binary main_v56 main_v55 main_v57 (addf : (⟨S16384x512, .f32⟩ : BufTy).Contents (Elt F) → (⟨S16384x512, .f32⟩ : BufTy).Contents (Elt F) → (⟨S16384x512, .f32⟩ : BufTy).Contents (Elt F)),
    nullary main_cst_9 (constant S_ .f32 0x3F800000#32),
    unary main_cst_9 main_v58 (broadcastInDim S16384x512 ![] bcast_S_S16384x512 : (⟨S_, .f32⟩ : BufTy).Contents (Elt F) → (⟨S16384x512, .f32⟩ : BufTy).Contents (Elt F)),
    binary main_v58 main_v57 main_v59 (Host.divf : (⟨S16384x512, .f32⟩ : BufTy).Contents (Elt F) → (⟨S16384x512, .f32⟩ : BufTy).Contents (Elt F) → (⟨S16384x512, .f32⟩ : BufTy).Contents (Elt F)),
    binary main_v34 main_v9 main_v60 (mulf : (⟨S16384x512, .f32⟩ : BufTy).Contents (Elt F) → (⟨S16384x512, .f32⟩ : BufTy).Contents (Elt F) → (⟨S16384x512, .f32⟩ : BufTy).Contents (Elt F)),
    binary main_v6 main_v60 main_v61 (addf : (⟨S16384x512, .f32⟩ : BufTy).Contents (Elt F) → (⟨S16384x512, .f32⟩ : BufTy).Contents (Elt F) → (⟨S16384x512, .f32⟩ : BufTy).Contents (Elt F)),
    nullary main_cst_10 (constant S_ .f32 0x00000000#32),
    binary main_v61 main_cst_10 main_v62 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v62 main_v63 (broadcastInDim S16384x1 ![0] bcast_S16384_S16384x1_0 : (⟨S16384, .f32⟩ : BufTy).Contents (Elt F) → (⟨S16384x1, .f32⟩ : BufTy).Contents (Elt F)),
    nullary main_cst_11 (constant S_ .f32 0x44000000#32),
    unary main_cst_11 main_v64 (broadcastInDim S16384x1 ![] bcast_S_S16384x1 : (⟨S_, .f32⟩ : BufTy).Contents (Elt F) → (⟨S16384x1, .f32⟩ : BufTy).Contents (Elt F)),
    binary main_v63 main_v64 main_v65 (Host.divf : (⟨S16384x1, .f32⟩ : BufTy).Contents (Elt F) → (⟨S16384x1, .f32⟩ : BufTy).Contents (Elt F) → (⟨S16384x1, .f32⟩ : BufTy).Contents (Elt F)),
    nullary main_c_12 (constantI S_ 32 0#32),
    TRef.nullary main_call2.cst (constant S_ .f32 0x00000000#32),
    TRef.binary (TRef.of main_v61 : TRef sig ⟨S16384x512, .f32⟩) main_call2.cst main_call2.v0 (fun x v => Host.reduceAdd x v reducesTo_S16384x512_S16384_d1 h_S_),
    TRef.unary main_call2.v0 main_call2.v1 (broadcastInDim S16384x1 ![0] bcast_S16384_S16384x1_0),
    TRef.nullary main_call2.cst_0 (constant S_ .f32 0x44000000#32),
    TRef.unary main_call2.cst_0 main_call2.v2 (broadcastInDim S16384x1 ![] bcast_S_S16384x1),
    TRef.binary main_call2.v1 main_call2.v2 main_call2.v3 Host.divf,
    TRef.unary main_call2.v3 main_call2.v4 (broadcastInDim S16384x512 ![0, 1] bcast_S16384x1_S16384x512_0_1),
    TRef.binary (TRef.of main_v61 : TRef sig ⟨S16384x512, .f32⟩) main_call2.v4 main_call2.v5 subf,
    TRef.binary main_call2.v5 main_call2.v5 main_call2.v6 mulf,
    TRef.unary (TRef.of main_c_12 : TRef sig ⟨S_, .i32⟩) main_call2.v7 (sitofp .f32),
    TRef.nullary main_call2.cst_1 (constant S_ .f32 0x44000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S16384x512_S16384_d1 h_S_),
    TRef.unary main_call2.v9 main_call2.v10 (broadcastInDim S16384x1 ![0] bcast_S16384_S16384x1_0),
    TRef.unary main_call2.v8 main_call2.v11 (broadcastInDim S16384x1 ![] bcast_S_S16384x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S16384x1 ![] bcast_S_S16384x1),
    TRef.ternary main_call2.v13 main_call2.v12 main_call2.call0.v1 main_call2.call0.v2 (fun p a b => select (broadcastInDim S16384x1 ![] bcast_S_S16384x1 p) a b),
    unary main_v65 main_v67 (broadcastInDim S16384x512 ![0, 1] bcast_S16384x1_S16384x512_0_1 : (⟨S16384x1, .f32⟩ : BufTy).Contents (Elt F) → (⟨S16384x512, .f32⟩ : BufTy).Contents (Elt F)),
    binary main_v61 main_v67 main_v68 (subf : (⟨S16384x512, .f32⟩ : BufTy).Contents (Elt F) → (⟨S16384x512, .f32⟩ : BufTy).Contents (Elt F) → (⟨S16384x512, .f32⟩ : BufTy).Contents (Elt F)),
    nullary main_cst_13 (constant S_ .f32 0x3727C5AC#32),
    unary main_cst_13 main_v69 (broadcastInDim S16384x1 ![] bcast_S_S16384x1 : (⟨S_, .f32⟩ : BufTy).Contents (Elt F) → (⟨S16384x1, .f32⟩ : BufTy).Contents (Elt F)),
    binary main_v66 main_v69 main_v70 (addf : (⟨S16384x1, .f32⟩ : BufTy).Contents (Elt F) → (⟨S16384x1, .f32⟩ : BufTy).Contents (Elt F) → (⟨S16384x1, .f32⟩ : BufTy).Contents (Elt F)),
    unary main_v70 main_v71 (Host.rsqrt : (⟨S16384x1, .f32⟩ : BufTy).Contents (Elt F) → (⟨S16384x1, .f32⟩ : BufTy).Contents (Elt F)),
    unary main_v71 main_v72 (broadcastInDim S16384x512 ![0, 1] bcast_S16384x1_S16384x512_0_1 : (⟨S16384x1, .f32⟩ : BufTy).Contents (Elt F) → (⟨S16384x512, .f32⟩ : BufTy).Contents (Elt F)),
    binary main_v68 main_v72 main_v73 (mulf : (⟨S16384x512, .f32⟩ : BufTy).Contents (Elt F) → (⟨S16384x512, .f32⟩ : BufTy).Contents (Elt F) → (⟨S16384x512, .f32⟩ : BufTy).Contents (Elt F)),
    unary main_arg8 main_v74 (broadcastInDim S1x512 ![1] bcast_S512_S1x512_1 : (⟨S512, .f32⟩ : BufTy).Contents (Elt F) → (⟨S1x512, .f32⟩ : BufTy).Contents (Elt F)),
    unary main_v74 main_v75 (broadcastInDim S16384x512 ![0, 1] bcast_S1x512_S16384x512_0_1 : (⟨S1x512, .f32⟩ : BufTy).Contents (Elt F) → (⟨S16384x512, .f32⟩ : BufTy).Contents (Elt F)),
    binary main_v73 main_v75 main_v76 (mulf : (⟨S16384x512, .f32⟩ : BufTy).Contents (Elt F) → (⟨S16384x512, .f32⟩ : BufTy).Contents (Elt F) → (⟨S16384x512, .f32⟩ : BufTy).Contents (Elt F)),
    unary main_arg9 main_v77 (broadcastInDim S1x512 ![1] bcast_S512_S1x512_1 : (⟨S512, .f32⟩ : BufTy).Contents (Elt F) → (⟨S1x512, .f32⟩ : BufTy).Contents (Elt F)),
    unary main_v77 main_v78 (broadcastInDim S16384x512 ![0, 1] bcast_S1x512_S16384x512_0_1 : (⟨S1x512, .f32⟩ : BufTy).Contents (Elt F) → (⟨S16384x512, .f32⟩ : BufTy).Contents (Elt F)),
    binary main_v76 main_v78 main_v79 (addf : (⟨S16384x512, .f32⟩ : BufTy).Contents (Elt F) → (⟨S16384x512, .f32⟩ : BufTy).Contents (Elt F) → (⟨S16384x512, .f32⟩ : BufTy).Contents (Elt F)),
    unary main_v79 main_v80 (Host.tanh : (⟨S16384x512, .f32⟩ : BufTy).Contents (Elt F) → (⟨S16384x512, .f32⟩ : BufTy).Contents (Elt F)),
    nullary main_cst_14 (constant S_ .f32 0x3F800000#32),
    unary main_cst_14 main_v81 (broadcastInDim S16384x512 ![] bcast_S_S16384x512 : (⟨S_, .f32⟩ : BufTy).Contents (Elt F) → (⟨S16384x512, .f32⟩ : BufTy).Contents (Elt F)),
    binary main_v81 main_v59 main_v82 (subf : (⟨S16384x512, .f32⟩ : BufTy).Contents (Elt F) → (⟨S16384x512, .f32⟩ : BufTy).Contents (Elt F) → (⟨S16384x512, .f32⟩ : BufTy).Contents (Elt F)),
    binary main_v82 main_v80 main_v83 (mulf : (⟨S16384x512, .f32⟩ : BufTy).Contents (Elt F) → (⟨S16384x512, .f32⟩ : BufTy).Contents (Elt F) → (⟨S16384x512, .f32⟩ : BufTy).Contents (Elt F)),
    binary main_v59 main_arg1 main_v84 (mulf : (⟨S16384x512, .f32⟩ : BufTy).Contents (Elt F) → (⟨S16384x512, .f32⟩ : BufTy).Contents (Elt F) → (⟨S16384x512, .f32⟩ : BufTy).Contents (Elt F)),
    binary main_v83 main_v84 main_v85 (addf : (⟨S16384x512, .f32⟩ : BufTy).Contents (Elt F) → (⟨S16384x512, .f32⟩ : BufTy).Contents (Elt F) → (⟨S16384x512, .f32⟩ : BufTy).Contents (Elt F)) ]

end Cert.ReferenceIdeal.RefRun

end
-- ==== Proof.RefMain.lean ====
/-
  The reference program IS the straight line of its operations: the outlined routines' definitions unfolded at
  their calls and the call records at their fields, both sides are one chain of host steps once sequencing is
  reassociated.
-/
import proofs.«115454_j39745627357260_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The program is the line of its operations. -/
theorem main_eq (c : Dev nD) : main (F := F) c = seq ops := by
  simp only [main, main_part0, main_part1, fn_var.body, fn_where.body, seq, bind_assoc, pure_bind]

end Cert.ReferenceIdeal.RefRun

end
-- ==== Proof.RefSub.lean ====
/-
  What the run of a straight line asks of the operations and of the signature: every operation touches
  TensorCore references only, and the signature scopes no TensorCore buffer and no semaphore.
-/
import proofs.«115454_j39745627357260_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches TensorCore references only: each is one of the four builders, whose buffers are
    its operands' and its result's. -/
theorem ops_sub : (ops : List (HloOp τ sig (Elt F))).Forall fun op => op.bufs ⊆ tcRefs τ sig := by
  repeat' apply And.intro
  all_goals first
    | with_reducible exact nullary_bufs_sub ..
    | with_reducible exact unary_bufs_sub ..
    | with_reducible exact binary_bufs_sub ..
    | with_reducible exact ternary_bufs_sub ..
    | exact binary_bufs_sub ..

end Cert.ReferenceIdeal.RefRun

end
-- ==== Proof.RefRead.lean ====
/-
  What the result buffer holds once the line has run from contents V: the operations' composed term of V at the
  ten argument buffers. The fold is unrolled and each operation's result read at its own buffer is its function's
  value, at any other buffer what was there; the term left is the named one by unfolding its definitions (the
  typed references' transports are along reflexivity at these literal references).
-/
import proofs.«115454_j39745627357260_2_alg».proof.Proof.RefOps
import proofs.«115454_j39745627357260_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 20000000 in
/-- The result buffer after the line, from any contents. -/
theorem out_eq (V : Valuation τ sig (Elt F)) :
    after ops V (main_v85 : DevRef τ sig)
      = RefTerm.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

end Cert.ReferenceIdeal.RefRun

end
-- ==== Proof.RefArgs.lean ====
/-
  No operation of the line writes an argument buffer: each keeps its contents.
-/
import proofs.«115454_j39745627357260_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 20000000 in
theorem arg0_eq (V : Valuation τ sig (Elt F)) :
    after ops V (main_arg0 : DevRef τ sig) = V (main_arg0 : DevRef τ sig) := by
  after_results_simp

set_option maxRecDepth 16384 in
set_option maxHeartbeats 20000000 in
theorem arg1_eq (V : Valuation τ sig (Elt F)) :
    after ops V (main_arg1 : DevRef τ sig) = V (main_arg1 : DevRef τ sig) := by
  after_results_simp

set_option maxRecDepth 16384 in
set_option maxHeartbeats 20000000 in
theorem arg2_eq (V : Valuation τ sig (Elt F)) :
    after ops V (main_arg2 : DevRef τ sig) = V (main_arg2 : DevRef τ sig) := by
  after_results_simp

set_option maxRecDepth 16384 in
set_option maxHeartbeats 20000000 in
theorem arg3_eq (V : Valuation τ sig (Elt F)) :
    after ops V (main_arg3 : DevRef τ sig) = V (main_arg3 : DevRef τ sig) := by
  after_results_simp

set_option maxRecDepth 16384 in
set_option maxHeartbeats 20000000 in
theorem arg4_eq (V : Valuation τ sig (Elt F)) :
    after ops V (main_arg4 : DevRef τ sig) = V (main_arg4 : DevRef τ sig) := by
  after_results_simp

set_option maxRecDepth 16384 in
set_option maxHeartbeats 20000000 in
theorem arg5_eq (V : Valuation τ sig (Elt F)) :
    after ops V (main_arg5 : DevRef τ sig) = V (main_arg5 : DevRef τ sig) := by
  after_results_simp

set_option maxRecDepth 16384 in
set_option maxHeartbeats 20000000 in
theorem arg6_eq (V : Valuation τ sig (Elt F)) :
    after ops V (main_arg6 : DevRef τ sig) = V (main_arg6 : DevRef τ sig) := by
  after_results_simp

set_option maxRecDepth 16384 in
set_option maxHeartbeats 20000000 in
theorem arg7_eq (V : Valuation τ sig (Elt F)) :
    after ops V (main_arg7 : DevRef τ sig) = V (main_arg7 : DevRef τ sig) := by
  after_results_simp

set_option maxRecDepth 16384 in
set_option maxHeartbeats 20000000 in
theorem arg8_eq (V : Valuation τ sig (Elt F)) :
    after ops V (main_arg8 : DevRef τ sig) = V (main_arg8 : DevRef τ sig) := by
  after_results_simp

set_option maxRecDepth 16384 in
set_option maxHeartbeats 20000000 in
theorem arg9_eq (V : Valuation τ sig (Elt F)) :
    after ops V (main_arg9 : DevRef τ sig) = V (main_arg9 : DevRef τ sig) := by
  after_results_simp

end Cert.ReferenceIdeal.RefRun

end
-- ==== Proof.RefRun.lean ====
/-
  The reference's run. On every device, for any float values, from any memory with zero counters: every weakly
  fair execution of the reference program terminates, the result buffer holding the program's result term of the
  ten argument arrays' launch contents and every argument buffer unchanged. The program is a straight line of host
  operations, whose run ends with each buffer at the fold of the operations' results over the launch contents; the
  fold is read at the result buffer and at the arguments.
-/
import proofs.«115454_j39745627357260_2_alg».proof.Proof.RefMain
import proofs.«115454_j39745627357260_2_alg».proof.Proof.RefSub
import proofs.«115454_j39745627357260_2_alg».proof.Proof.RefRead
import proofs.«115454_j39745627357260_2_alg».proof.Proof.RefArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The reference's run: the result is the named term of the arguments, the arguments are unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v85)
        = Cert.ReferenceIdeal.RefTerm.refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v85).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.RefLayoutB.lean ====
/-
  A projection read at an index: the reference's `dot_general` of a batch of rows with the transposed weight matrix is,
  at row `b` and column `c`, the sum over the 512 inputs of the row's entry times the weight stored at [c, input].
-/
import proofs.«115454_j39745627357260_2_alg».proof.Proof.Spec
import proofs.«115454_j39745627357260_2_alg».proof.Proof.RefTerm
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefTerm Idealize.ShloMosaic Idealize.ShloMosaic.ValueIdx
  Idealize.ShloMosaic.TcCoe

/-- The projection's dimension numbers: rows × inputs times inputs × columns, one contracted axis. -/
abbrev D : DotDims S16384x512 S512x1536 S16384x1536 := dot_S16384x512_S512x1536_S16384x1536_1_0_0_1_n_n

/-- The left operand is read at the result's row … -/
theorem lhs_0 (i : S16384x1536.Idx) (q : D.contr.Idx) : (D.lhsIdx i q 0).val = (i 0).val := by
  unfold DotDims.lhsIdx
  rw [dif_neg (show ¬(0 : Fin S16384x512.rank) ∈ D.lhsBatch by decide),
    dif_pos (show (0 : Fin S16384x512.rank) ∈ D.lhsNonContracting by decide)]
  rfl
/-- … and the contraction position; -/
theorem lhs_1 (i : S16384x1536.Idx) (q : D.contr.Idx) : (D.lhsIdx i q 1).val = (q ⟨0, by decide⟩).val :=
  D.lhsIdx_val_of_single rfl i q
/-- the right operand at the contraction position … -/
theorem rhs_0 (i : S16384x1536.Idx) (q : D.contr.Idx) : (D.rhsIdx i q 0).val = (q ⟨0, by decide⟩).val :=
  D.rhsIdx_val_of_single rfl i q
/-- … and the result's column. -/
theorem rhs_1 (i : S16384x1536.Idx) (q : D.contr.Idx) : (D.rhsIdx i q 1).val = (i 1).val := by
  unfold DotDims.rhsIdx
  rw [dif_neg (show ¬(1 : Fin S512x1536.rank) ∈ D.rhsBatch by decide),
    dif_pos (show (1 : Fin S512x1536.rank) ∈ D.rhsNonContracting by decide)]
  rfl

/-- The projection at row `b`, column `c`. -/
theorem gates_apply (a : FVec Ideal S16384x512 .f32) (w : FVec Ideal S1536x512 .f32) (b : Fin 16384) (c : Fin 1536) :
    gates a w (ix2 b c) = Cert.Gru.proj (fun k => a (ix2 b k)) (fun c k => w (ix2 c k)) c := by
  unfold gates Cert.Gru.proj
  simp only [Host.dotGeneral]
  rw [Ideal.dotGeneral_apply, ← Equiv.sum_comp (contrEquiv1 D 512 rfl rfl).symm]
  refine Finset.sum_congr rfl fun k _ => ?_
  have hk := contrEquiv1_symm_val D 512 rfl rfl k
  have el : D.lhsIdx (ix2 b c) ((contrEquiv1 D 512 rfl rfl).symm k) = ix2 b k := funext fun a => Fin.ext (by
    match a with
    | ⟨0, _⟩ => exact lhs_0 _ _
    | ⟨1, _⟩ => exact (lhs_1 _ _).trans hk)
  have er : D.rhsIdx (ix2 b c) ((contrEquiv1 D 512 rfl rfl).symm k) = ix2 k c := funext fun a => Fin.ext (by
    match a with
    | ⟨0, _⟩ => exact (rhs_0 _ _).trans hk
    | ⟨1, _⟩ => exact rhs_1 _ _)
  rw [el, er]
  refine congrArg (a (ix2 b k) * ·) ?_
  exact transpose_apply _ w _ (ix2 k c) (ix2 c k) (fun d => by
    match d with
    | ⟨0, _⟩ => rfl
    | ⟨1, _⟩ => rfl)

end Cert.ReferenceIdeal.RefValue

end
-- ==== Proof.RefLayoutA.lean ====
/-
  The reference's layout operations read at an index given by its coordinates: a column block of a projection is the
  projection at the block's column; a column spread over a row reads the column's one entry; a vector repeated on
  every row reads its entry; a scalar constant reads its word; a row sum is the sum over the row's 512 entries.
-/
import proofs.«115454_j39745627357260_2_alg».proof.Proof.Spec
import proofs.«115454_j39745627357260_2_alg».proof.Proof.RefTerm
import proofs.«115454_j39745627357260_2_alg».proof.Proof.Consts
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.RefTerm Idealize.ShloMosaic Idealize.ShloMosaic.ValueIdx
  Idealize.ShloMosaic.TcCoe

/-- The reset block at column `j` is the projection at column `j`. -/
theorem blk0_apply (p : FVec Ideal S16384x1536 .f32) (b : Fin 16384) (j : Fin 512) :
    blk0 p (ix2 b j) = p (ix2 b (Cert.Gru.col0 j)) := by
  unfold blk0
  exact extractStridedSlice_apply _ p _ (ix2 b j) (ix2 b (Cert.Gru.col0 j)) (fun a => by
    match a with
    | ⟨0, _⟩ => show b.val = 0 + b.val; omega
    | ⟨1, _⟩ => show j.val = 0 + j.val; omega)

/-- The update block at column `j` is the projection at column `j + 512`. -/
theorem blk1_apply (p : FVec Ideal S16384x1536 .f32) (b : Fin 16384) (j : Fin 512) :
    blk1 p (ix2 b j) = p (ix2 b (Cert.Gru.col1 j)) := by
  unfold blk1
  exact extractStridedSlice_apply _ p _ (ix2 b j) (ix2 b (Cert.Gru.col1 j)) (fun a => by
    match a with
    | ⟨0, _⟩ => show b.val = 0 + b.val; omega
    | ⟨1, _⟩ => show j.val + 512 = 512 + j.val; omega)

/-- The candidate block at column `j` is the projection at column `j + 1024`. -/
theorem blk2_apply (p : FVec Ideal S16384x1536 .f32) (b : Fin 16384) (j : Fin 512) :
    blk2 p (ix2 b j) = p (ix2 b (Cert.Gru.col2 j)) := by
  unfold blk2
  exact extractStridedSlice_apply _ p _ (ix2 b j) (ix2 b (Cert.Gru.col2 j)) (fun a => by
    match a with
    | ⟨0, _⟩ => show b.val = 0 + b.val; omega
    | ⟨1, _⟩ => show j.val + 1024 = 1024 + j.val; omega)

/-- A column spread over a row reads the column's entry of that row. -/
theorem spread_apply (w : FVec Ideal S16384x1 .f32) (b : Fin 16384) (j : Fin 512) :
    spread w (ix2 b j) = w (ix2 b 0) := by
  unfold spread
  exact broadcastInDim_apply _ _ w (ix2 b j) (ix2 b 0) (fun a => by
    match a with
    | ⟨0, _⟩ => rfl
    | ⟨1, _⟩ => rfl)

/-- A vector repeated on every row reads its entry at the column. -/
theorem rows_apply (g : FVec Ideal S512 .f32) (b : Fin 16384) (j : Fin 512) :
    rows g (ix2 b j) = g (ix1 j) := by
  unfold rows
  refine (broadcastInDim_apply _ _ _ (ix2 b j) (ix2 (0 : Fin 1) j) (fun a => by
    match a with
    | ⟨0, _⟩ => rfl
    | ⟨1, _⟩ => rfl)).trans ?_
  exact broadcastInDim_apply _ _ g (ix2 (0 : Fin 1) j) (ix1 j) (fun a => by
    match a with
    | ⟨0, _⟩ => rfl)

/-- A scalar constant spread over a column reads the extended real its word denotes. -/
theorem colConst_apply (w : BitVec 32) (i : S16384x1.Idx) :
    colConst (F := Ideal) w i = Ideal.ofBits .f32 w := by
  unfold colConst
  exact broadcastInDim_apply _ _ _ i ix0 (fun a => a.elim0)

/-- The array of ones reads the float 1. -/
theorem ones_apply (i : S16384x512.Idx) : ones (F := Ideal) i = Cert.Gru.one := by
  unfold ones
  exact broadcastInDim_apply _ _ _ i ix0 (fun a => a.elim0)

/-- A row sum read at the row is the sum over the row's 512 entries. -/
theorem rowSum_apply (v : FVec Ideal S16384x512 .f32) (b : Fin 16384) :
    rowSum v (ix2 b 0) = ∑ k : Fin 512, v (ix2 b k) := by
  unfold rowSum
  refine (broadcastInDim_apply _ _ _ (ix2 b (0 : Fin 1)) (ix1 b) (fun a => by
    match a with
    | ⟨0, _⟩ => rfl)).trans ?_
  unfold Host.reduceAdd
  rw [Ideal.hostReduceAdd_def, Ideal.hostReduceAdd_single reducesTo_S16384x512_S16384_d1 (by decide)]
  show Ideal.ofBits .f32 0x00000000#32 + _ = _
  rw [Cert.Gru.Consts.ofBits_zero, zero_add]
  refine Finset.sum_congr rfl fun k _ => ?_
  exact congrArg v (funext fun a => Fin.ext (by match a with | ⟨0, _⟩ => rfl | ⟨1, _⟩ => rfl))

end Cert.ReferenceIdeal.RefValue

end
-- ==== Proof.RefValueLn.lean ====
/-
  The reference's layer norm and logistic function read at an index: the row mean is the sum of the row over 512; the
  library routine's variance, its correction zero, is the mean of the squared deviations (the routine's guard, the
  divisor 512 − 0 positive, holds, and the divisor is 512); the layer norm at (b, j) is the specification's on row b;
  the reference's `1 / (1 + exp (−u))` is the logistic function.
-/
import proofs.«115454_j39745627357260_2_alg».proof.Proof.RefLayoutA

noncomputable section

open scoped BigOperators

namespace Cert.ReferenceIdeal.RefValue

open Cert.ReferenceIdeal Cert.ReferenceIdeal.Gen Cert.ReferenceIdeal.RefTerm Idealize.ShloMosaic Idealize.ShloMosaic.ValueIdx
  Idealize.ShloMosaic.TcCoe

/-- The row mean: the row's sum over 512. -/
theorem meanV_apply (v : FVec Ideal S16384x512 .f32) (b : Fin 16384) :
    meanV v (ix2 b 0) = Cert.Gru.mean (fun k => v (ix2 b k)) := by
  unfold meanV Cert.Gru.mean
  show Ideal.div (rowSum v (ix2 b 0)) (colConst (F := Ideal) 0x44000000#32 (ix2 b 0)) = _
  rw [rowSum_apply, colConst_apply]

/-- The variance's divisor, 512 less the correction zero, is 512. -/
theorem divisor_eq (i : S_.Idx) :
    subf (constant (F := Ideal) S_ .f32 0x44000000#32) (sitofp .f32 (constantI S_ 32 0#32)) i = Cert.Gru.c512 := by
  show Ideal.ofBits .f32 0x44000000#32 - (((0#32 : BitVec 32).toInt : ℝ) : EReal) = Ideal.ofBits .f32 0x44000000#32
  simp

/-- The routine's guard: the divisor is positive. -/
theorem cond_eq (i : S16384x1.Idx) :
    (broadcastInDim S16384x1 ![] bcast_S_S16384x1
      (cmpf .ogt (subf (constant (F := Ideal) S_ .f32 0x44000000#32) (sitofp .f32 (constantI S_ 32 0#32)))
        (constant (F := Ideal) S_ .f32 0x00000000#32))) i = 1#1 := by
  refine (broadcastInDim_apply _ _ _ i ix0 (fun a => a.elim0)).trans ?_
  rw [cmpf_apply, divisor_eq]
  show Ideal.cmp .ogt (Ideal.ofBits .f32 0x44000000#32) (Ideal.ofBits .f32 0x00000000#32) = 1#1
  rw [Cert.Gru.Consts.ofBits_512, Cert.Gru.Consts.ofBits_zero]
  simp [Ideal.cmp]

/-- The row variance: the mean of the squared deviations from the row mean. -/
theorem varV_apply (v : FVec Ideal S16384x512 .f32) (b : Fin 16384) :
    varV v (constantI S_ 32 0#32) (ix2 b 0) = Cert.Gru.var2 (fun k => v (ix2 b k)) := by
  unfold varV
  rw [select_apply, cond_eq, select_one]
  show Ideal.div (rowSum (mulf (subf v (spread (meanV v))) (subf v (spread (meanV v)))) (ix2 b 0))
      ((broadcastInDim S16384x1 ![] bcast_S_S16384x1
        (subf (constant (F := Ideal) S_ .f32 0x44000000#32) (sitofp .f32 (constantI S_ 32 0#32)))) (ix2 b 0)) = _
  rw [rowSum_apply, broadcastInDim_apply _ _ _ (ix2 b (0 : Fin 1)) ix0 (fun a => a.elim0), divisor_eq]
  unfold Cert.Gru.var2
  refine congrArg (Ideal.div · Cert.Gru.c512) (Finset.sum_congr rfl fun k _ => ?_)
  rw [mulf_apply, subf_apply, spread_apply, meanV_apply]

/-- The layer norm at row `b`, entry `j`. -/
theorem lnV_apply (v : FVec Ideal S16384x512 .f32) (g β : FVec Ideal S512 .f32) (b : Fin 16384) (j : Fin 512) :
    lnV v g β (ix2 b j)
      = Cert.Gru.ln (Cert.Gru.var2 (fun k => v (ix2 b k))) (fun k => v (ix2 b k)) (fun k => g (ix1 k)) (fun k => β (ix1 k)) j := by
  unfold lnV Cert.Gru.ln
  rw [addf_apply, mulf_apply, mulf_apply, subf_apply, spread_apply, spread_apply, rows_apply, rows_apply, meanV_apply]
  show (v (ix2 b j) - _) * Ideal.rsqrt (varV v (constantI S_ 32 0#32) (ix2 b 0) + colConst (F := Ideal) 0x3727C5AC#32 (ix2 b 0))
      * g (ix1 j) + β (ix1 j) = _
  rw [varV_apply, colConst_apply]

/-- The reference's `1 / (1 + exp (−u))` is the logistic function. -/
theorem sigV_apply (u : FVec Ideal S16384x512 .f32) (i : S16384x512.Idx) : sigV u i = Ideal.logistic (u i) := by
  unfold sigV
  show Ideal.div (ones (F := Ideal) i) (ones (F := Ideal) i + Ideal.exp (-(u i))) = _
  rw [(ones_apply i).trans Cert.Gru.Consts.ofBits_one]
  rfl

end Cert.ReferenceIdeal.RefValue

end
-- ==== Proof.RefValue.lean ====
/-
  The reference's result read at an index is the layer-normalised GRU cell of the specification, its variance the
  mean of the squared deviations: at batch row `b` the two projections are the row's, the three gate inputs are
  the projections' column blocks combined as the cell combines them, each layer norm is the specification's on that
  row, and the result is `(1 − z) · n + z · h`.
-/
import proofs.«115454_j39745627357260_2_alg».proof.Proof.RefLayoutB
import proofs.«115454_j39745627357260_2_alg».proof.Proof.RefValueLn

noncomputable section

open scoped BigOperators

namespace Cert.ReferenceIdeal.RefValue

open Cert.ReferenceIdeal Cert.ReferenceIdeal.Gen Cert.ReferenceIdeal.RefTerm Idealize.ShloMosaic Idealize.ShloMosaic.ValueIdx
  Idealize.ShloMosaic.TcCoe

variable (a0 a1 : FVec Ideal S16384x512 .f32) (a2 a3 : FVec Ideal S1536x512 .f32) (a4 a5 a6 a7 a8 a9 : FVec Ideal S512 .f32)
  (b : Fin 16384) (j : Fin 512)

/-- The reset gate's input on row `b`. -/
theorem preR_eq :
    (fun k : Fin 512 => addf (blk0 (gates a0 a2)) (blk0 (gates a1 a3)) (ix2 b k))
      = Cert.Gru.preR (Cert.Gru.proj (fun k => a0 (ix2 b k)) (fun c k => a2 (ix2 c k))) (Cert.Gru.proj (fun k => a1 (ix2 b k)) (fun c k => a3 (ix2 c k))) :=
  funext fun k => by
    rw [addf_apply, blk0_apply, blk0_apply, gates_apply, gates_apply]
    rfl

/-- The update gate's input on row `b`. -/
theorem preZ_eq :
    (fun k : Fin 512 => addf (blk1 (gates a0 a2)) (blk1 (gates a1 a3)) (ix2 b k))
      = Cert.Gru.preZ (Cert.Gru.proj (fun k => a0 (ix2 b k)) (fun c k => a2 (ix2 c k))) (Cert.Gru.proj (fun k => a1 (ix2 b k)) (fun c k => a3 (ix2 c k))) :=
  funext fun k => by
    rw [addf_apply, blk1_apply, blk1_apply, gates_apply, gates_apply]
    rfl

/-- The reset gate on row `b`. -/
theorem rV_apply :
    rV a0 a1 a2 a3 a4 a5 (ix2 b j)
      = Cert.Gru.gateR Cert.Gru.var2 (Cert.Gru.proj (fun k => a0 (ix2 b k)) (fun c k => a2 (ix2 c k))) (Cert.Gru.proj (fun k => a1 (ix2 b k)) (fun c k => a3 (ix2 c k))) (fun k => a4 (ix1 k)) (fun k => a5 (ix1 k)) j := by
  unfold rV Cert.Gru.gateR
  rw [sigV_apply, lnV_apply, preR_eq]

/-- The update gate on row `b`. -/
theorem zV_apply :
    zV a0 a1 a2 a3 a6 a7 (ix2 b j)
      = Cert.Gru.gateZ Cert.Gru.var2 (Cert.Gru.proj (fun k => a0 (ix2 b k)) (fun c k => a2 (ix2 c k))) (Cert.Gru.proj (fun k => a1 (ix2 b k)) (fun c k => a3 (ix2 c k))) (fun k => a6 (ix1 k)) (fun k => a7 (ix1 k)) j := by
  unfold zV Cert.Gru.gateZ
  rw [sigV_apply, lnV_apply, preZ_eq]

/-- The candidate's input on row `b`. -/
theorem preN_eq :
    (fun k : Fin 512 => addf (blk2 (gates a0 a2)) (mulf (rV a0 a1 a2 a3 a4 a5) (blk2 (gates a1 a3))) (ix2 b k))
      = Cert.Gru.preN (Cert.Gru.proj (fun k => a0 (ix2 b k)) (fun c k => a2 (ix2 c k))) (Cert.Gru.proj (fun k => a1 (ix2 b k)) (fun c k => a3 (ix2 c k)))
          (Cert.Gru.gateR Cert.Gru.var2 (Cert.Gru.proj (fun k => a0 (ix2 b k)) (fun c k => a2 (ix2 c k))) (Cert.Gru.proj (fun k => a1 (ix2 b k)) (fun c k => a3 (ix2 c k))) (fun k => a4 (ix1 k)) (fun k => a5 (ix1 k))) :=
  funext fun k => by
    rw [addf_apply, mulf_apply, blk2_apply, blk2_apply, gates_apply, gates_apply, rV_apply]
    rfl

/-- The candidate state on row `b`. -/
theorem nV_apply :
    nV a0 a1 a2 a3 a4 a5 a8 a9 (ix2 b j)
      = Cert.Gru.cand Cert.Gru.var2 (Cert.Gru.proj (fun k => a0 (ix2 b k)) (fun c k => a2 (ix2 c k))) (Cert.Gru.proj (fun k => a1 (ix2 b k)) (fun c k => a3 (ix2 c k)))
          (Cert.Gru.gateR Cert.Gru.var2 (Cert.Gru.proj (fun k => a0 (ix2 b k)) (fun c k => a2 (ix2 c k))) (Cert.Gru.proj (fun k => a1 (ix2 b k)) (fun c k => a3 (ix2 c k))) (fun k => a4 (ix1 k)) (fun k => a5 (ix1 k)))
          (fun k => a8 (ix1 k)) (fun k => a9 (ix1 k)) j := by
  unfold nV Cert.Gru.cand
  show Ideal.tanh (lnV _ a8 a9 (ix2 b j)) = _
  rw [lnV_apply, preN_eq]

/-- THE REFERENCE'S RESULT AT (b, j): the cell of the specification, with the two-pass variance. -/
theorem refOut_apply :
    Cert.ReferenceIdeal.RefTerm.refOut (F := Ideal) a0 a1 a2 a3 a4 a5 a6 a7 a8 a9 (ix2 b j)
      = Cert.Gru.Gat Cert.Gru.var2 a0 a1 a2 a3 a4 a5 a6 a7 a8 a9 b j := by
  unfold refOut Cert.Gru.Gat Cert.Gru.cell
  rw [addf_apply, mulf_apply, mulf_apply, subf_apply, ones_apply, zV_apply, nV_apply]

end Cert.ReferenceIdeal.RefValue

end
-- ==== Proof.lean ====
/-
  The certificate of the layer-normalised GRU cell: a TPU kernel (two matrix products on blocks of 512 batch rows, three
  layer normalisations, two logistic gates and a tanh candidate) against its array-library reference, equal as extended
  reals under the precondition that every float input is finite.

  Both programs compute, for each batch row, the cell of Proof/Spec.lean (Cert.Gru): the row's projections
  `x · W_i2hᵀ` and `h · W_h2hᵀ`, the gates `r = logistic (LN (px₀ + ph₀))`, `z = logistic (LN (px₁ + ph₁))`, the candidate
  `n = tanh (LN (px₂ + r · ph₂))` and the result `(1 − z) · n + z · h`. They differ in the variance inside `LN`: the kernel
  takes the mean of the squares minus the square of the mean, the reference the mean of the squared deviations.

  * The kernel's result array is `Cert.Gru.G var1` of the arguments (Proof/KerValue.lean): each of the 32 grid points writes
    the 512 rows of its block, a row of the stored block being the cell of the staged rows (Proof/KerIdioms.lean,
    Proof/KerPay.lean, Proof/KerCell.lean), and the blocks tile the array.
  * The reference's run ends with its result at the program's composed term of the arguments (Proof/RefRun.lean over
    Proof/RefOps.lean, Proof/RefTerm.lean), and that term read at an index is `Cert.Gru.Gat var2` (Proof/RefValue.lean).
  * On a row of REAL numbers the two variances agree — `(∑ f²)/n − μ² = (∑ (f − μ)²)/n` with `μ = (∑ f)/n`, an identity of
    the reals that fails at infinities — and every row a variance is taken of is real: sums of products of finite
    inputs, and the reset gate, a logistic value, is always real (Proof/Algebra.lean); the inputs are finite by the
    precondition (Proof/Finite.lean).
  * Proof/Assemble.lean puts the five claims together: the two kernels' frames are their generated frames, the
    reference's frame is its run with the result forgotten, nothing was rewritten by the idealization, and the two
    results are one function of the arguments.
-/
import proofs.«115454_j39745627357260_2_alg».proof.Defs
import proofs.«115454_j39745627357260_2_alg».proof.Proof.Assemble
import proofs.«115454_j39745627357260_2_alg».proof.Proof.KerValue
import proofs.«115454_j39745627357260_2_alg».proof.Proof.RefRun
import proofs.«115454_j39745627357260_2_alg».proof.Proof.RefValue

noncomputable section

namespace Cert.Proof

open Idealize.ShloMosaic Idealize.SL.Sem

theorem claim : Cert.Claim :=
  Cert.Proof.Assemble.claim_of
    (fun m ρ => Cert.KernelIdeal.KerValue.run m ρ)
    (fun m ρ => Cert.ReferenceIdeal.RefRun.run (F := Ideal) m ρ)
    Cert.ReferenceIdeal.RefValue.refOut_apply

end Cert.Proof

end
